-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x512x32x32 : Shape := ⟨5, ![64, 2, 512, 32, 32]⟩
abbrev S32x512 : Shape := ⟨2, ![32, 512]⟩
abbrev S32 : Shape := ⟨1, ![32]⟩
abbrev S1024x32 : Shape := ⟨2, ![1024, 32]⟩
abbrev S_ : Shape := ⟨0, ![]⟩

class Facts : Prop where
  bcast_S_S64x2x512x32x32 : S_.BroadcastsInDim S64x2x512x32x32 (![] : Fin 0 → Fin S64x2x512x32x32.rank)
  reducesTo_S64x2x512x32x32_S_d0_1_2_3_4 : S64x2x512x32x32.ReducesTo [0, 1, 2, 3, 4] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S1024x32 : S_.BroadcastsInDim S1024x32 (![] : Fin 0 → Fin S1024x32.rank)
  reducesTo_S1024x32_S_d0_1 : S1024x32.ReducesTo [0, 1] S_

variable [Facts]

def fn_part1 {F : FTy → Type} [FloatOps F] (main_arg4 : FVec F S32 .f32) (main_arg5 : FVec F S32 .f32) (main_arg6 : FVec F S1024x32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  main_v33

def fn {F : FTy → Type} [FloatOps F] (main_arg0 : FVec F S64x2x512x32x32 .f32) (main_arg1 : FVec F S32x512 .f32) (main_arg2 : FVec F S32 .f32) (main_arg3 : FVec F S32 .f32) (main_arg4 : FVec F S32 .f32) (main_arg5 : FVec F S32 .f32) (main_arg6 : FVec F S1024x32 .f32) : IVec S_ 1 :=
  let main_v0 : FVec F S64x2x512x32x32 .f32 := Host.absf main_arg0
  let main_cst : FVec F S_ .f32 := constant S_ .f32 0x7F800000#32
  let main_v1 : FVec F S64x2x512x32x32 .f32 := broadcastInDim S64x2x512x32x32 ![] bcast_S_S64x2x512x32x32 main_cst
  let main_v2 : IVec S64x2x512x32x32 1 := cmpf .olt main_v0 main_v1
  let main_c : IVec S_ 1 := constantI S_ 1 1#1
  let main_v3 : IVec S_ 1 := (fun x v => Host.reduce IntOp.andi x v reducesTo_S64x2x512x32x32_S_d0_1_2_3_4 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_v13 main_v16
-- ==== Kernel.lean ====
abbrev S64x2x512x32x32 : Shape := ⟨5, ![64, 2, 512, 32, 32]⟩
abbrev S32x512 : Shape := ⟨2, ![32, 512]⟩
abbrev S32 : Shape := ⟨1, ![32]⟩
abbrev S1024x32 : Shape := ⟨2, ![1024, 32]⟩
abbrev S64x2x512x1024 : Shape := ⟨4, ![64, 2, 512, 1024]⟩
abbrev S64x512 : Shape := ⟨2, ![64, 512]⟩
abbrev S8x2x128x1024 : Shape := ⟨4, ![8, 2, 128, 1024]⟩
abbrev S8x128 : Shape := ⟨2, ![8, 128]⟩
abbrev S8x2x128 : Shape := ⟨3, ![8, 2, 128]⟩
abbrev S512x32 : Shape := ⟨2, ![512, 32]⟩
abbrev S1x32 : Shape := ⟨2, ![1, 32]⟩
abbrev S64x32 : Shape := ⟨2, ![64, 32]⟩
abbrev S64x1x512 : Shape := ⟨3, ![64, 1, 512]⟩
abbrev S64x2x512 : Shape := ⟨3, ![64, 2, 512]⟩
abbrev S64x2x512x1x1 : Shape := ⟨5, ![64, 2, 512, 1, 1]⟩

abbrev nBuf : Space → Nat
  | .hbm => 21
  | .vmem => 14
  | .smem => 0
  | _ => 0

abbrev bufTy : (tb : Table) → Fin (tcTables nBuf tb) → BufTy
  | .hbm, ⟨0, _⟩ => ⟨S64x2x512x32x32, .f32⟩
  | .hbm, ⟨1, _⟩ => ⟨S32x512, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S1024x32, .f32⟩
  | .hbm, ⟨7, _⟩ => ⟨S64x2x512x1024, .f32⟩
  | .hbm, ⟨8, _⟩ => ⟨S64x512, .f32⟩
  | .hbm, ⟨9, _⟩ => ⟨S512x32, .f32⟩
  | .hbm, ⟨10, _⟩ => ⟨S512x32, .f32⟩
  | .hbm, ⟨11, _⟩ => ⟨S1x32, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S64x512, .f32⟩
  | .hbm, ⟨16, _⟩ => ⟨S64x512, .f32⟩
  | .hbm, ⟨17, _⟩ => ⟨S64x1x512, .f32⟩
  | .hbm, ⟨18, _⟩ => ⟨S64x1x512, .f32⟩
  | .hbm, ⟨19, _⟩ => ⟨S64x2x512, .f32⟩
  | .hbm, ⟨20, _⟩ => ⟨S64x2x512x1x1, .f32⟩
  | .local _ .vmem, ⟨0, _⟩ => ⟨S8x2x128x1024, .f32⟩
  | .local _ .vmem, ⟨1, _⟩ => ⟨S8x2x128x1024, .f32⟩
  | .local _ .vmem, ⟨2, _⟩ => ⟨S8x128, .f32⟩
  | .local _ .vmem, ⟨3, _⟩ => ⟨S8x128, .f32⟩
  | .local _ .vmem, ⟨4, _⟩ => ⟨S64x512, .f32⟩
  | .local _ .vmem, ⟨5, _⟩ => ⟨S32x512, .f32⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S512x32, .f32⟩
  | .local _ .vmem, ⟨11, _⟩ => ⟨S512x32, .f32⟩
  | .local _ .vmem, ⟨12, _⟩ => ⟨S64x512, .f32⟩
  | .local _ .vmem, ⟨13, _⟩ => ⟨S64x512, .f32⟩
  | _, _ => ⟨S64x2x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x2x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  shapeCasts_S64x2x512x32x32_S64x2x512x1024 : S64x2x512x32x32.ShapeCasts S64x2x512x1024
  inb_S8x2x128x1024_S8x2x128x1024_0_0_0_0 : ∀ a, (![0, 0, 0, 0] : Fin 4 → Nat) a + S8x2x128x1024.size a ≤ S8x2x128x1024.size a
  h_S8x2x128x1024 : 0 < S8x2x128x1024.numel
  shapeCasts_S8x2x128x1024_S8x2x128x1024 : S8x2x128x1024.ShapeCasts S8x2x128x1024
  reduces_S8x2x128x1024_S8x2x128 : S8x2x128x1024.Reduces [3] S8x2x128
  reduces_S8x2x128_S8x128 : S8x2x128.Reduces [1] S8x128
  inb_S8x128_S8x128_0_0 : ∀ a, (![0, 0] : Fin 2 → Nat) a + S8x128.size a ≤ S8x128.size a
  h_S8x128 : 0 < S8x128.numel
  slices_S1024x32_S512x32_0_0 : S1024x32.Slices ![0, 0] S512x32
  slices_S1024x32_S512x32_512_0 : S1024x32.Slices ![512, 0] S512x32
  shapeCasts_S32_S1x32 : S32.ShapeCasts S1x32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  bitsLt_bf16_f32 : FTy.bits .bf16 < FTy.bits .f32
  inb_S32x512_S32x512_0_0 : ∀ a, (![0, 0] : Fin 2 → Nat) a + S32x512.size a ≤ S32x512.size a
  h_S32x512 : 0 < S32x512.numel
  transposes_S32x512_p1_0_S512x32 : S32x512.Transposes [1, 0] S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  transposes_S512x32_p1_0_S32x512 : S512x32.Transposes [1, 0] S32x512
  bcast_S64x512_S64x1x512_0_2 : S64x512.BroadcastsInDim S64x1x512 (![0, 2] : Fin 2 → Fin S64x1x512.rank)
  concatenates_S64x1x512_S64x1x512_S64x2x512_d1 : Shape.Concatenates [S64x1x512, S64x1x512] S64x2x512 1
  shapeCasts_S64x2x512_S64x2x512x1x1 : S64x2x512.ShapeCasts S64x2x512x1x1
  dot_S64x512_S512x32_S64x32_1_0_0_1_n_n_wf : DotDims.WF S64x512 S512x32 S64x32 [1] [0] [0] [1] [] []
  dot_S64x32_S32x512_S64x512_1_0_0_1_n_n_wf : DotDims.WF S64x32 S32x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2x128x1024.size a ≤ S64x2x512x1024.size a
  hwx0_0 : ∀ i : grid0.Coords, EltTy.bits .f32 = 32 ∨ (Rect.block (s := S64x2x512x1024) S8x2x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x512.size a
  hwx0_1 : ∀ i : grid0.Coords, EltTy.bits .f32 = 32 ∨ (Rect.block (s := S64x512) S8x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S64x512.size a
  hwx1_0 : ∀ i : grid1.Coords, EltTy.bits .f32 = 32 ∨ (Rect.block (s := S64x512) S64x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x512.size a ≤ S32x512.size a
  hwx1_1 : ∀ i : grid1.Coords, EltTy.bits .f32 = 32 ∨ (Rect.block (s := S32x512) S32x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x32.size a ≤ S512x32.size a
  hwx1_6 : ∀ i : grid1.Coords, EltTy.bits .f32 = 32 ∨ (Rect.block (s := S512x32) S512x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x32.size a ≤ S512x32.size a
  hwx1_7 : ∀ i : grid1.Coords, EltTy.bits .f32 = 32 ∨ (Rect.block (s := S512x32) S512x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x512.size a ≤ S64x512.size a
  hwx1_8 : ∀ i : grid1.Coords, EltTy.bits .f32 = 32 ∨ (Rect.block (s := S64x512) S64x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x512.size a ≤ S64x512.size a
  hwx1_9 : ∀ i : grid1.Coords, EltTy.bits .f32 = 32 ∨ (Rect.block (s := S64x512) S64x512.size (cc1_transform_9 i) (hinb1_9 i)).WholeWords (EltTy.packing .f32)

variable [Facts₀]

def dot_S64x512_S512x32_S64x32_1_0_0_1_n_n : DotDims S64x512 S512x32 S64x32 where
  lhsContracting := [1]
  rhsContracting := [0]
  lhsNonContracting := [0]
  rhsNonContracting := [1]
  lhsBatch := []
  rhsBatch := []
  wf := dot_S64x512_S512x32_S64x32_1_0_0_1_n_n_wf
def dot_S64x32_S32x512_S64x512_1_0_0_1_n_n : DotDims S64x32 S32x512 S64x512 where
  lhsContracting := [1]
  rhsContracting := [0]
  lhsNonContracting := [0]
  rhsNonContracting := [1]
  lhsBatch := []
  rhsBatch := []
  wf := dot_S64x32_S32x512_S64x512_1_0_0_1_n_n_wf

abbrev win0_0 : Pipeline.Window sig grid0 :=
  Pipeline.Window.ofSpec (Memref.whole main_v0) S8x2x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S64x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S32x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S512x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S512x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8_0) S64x512.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v8_1) S64x512.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S64x2x512x32x32 : Shape := ⟨5, ![64, 2, 512, 32, 32]⟩
abbrev S32x512 : Shape := ⟨2, ![32, 512]⟩
abbrev S32 : Shape := ⟨1, ![32]⟩
abbrev S1024x32 : Shape := ⟨2, ![1024, 32]⟩
abbrev S_ : Shape := ⟨0, ![]⟩
abbrev S64x512x32x32 : Shape := ⟨4, ![64, 512, 32, 32]⟩
abbrev S64x512 : Shape := ⟨2, ![64, 512]⟩
abbrev S64x32 : Shape := ⟨2, ![64, 32]⟩
abbrev S1x32 : Shape := ⟨2, ![1, 32]⟩
abbrev S64x1024 : Shape := ⟨2, ![64, 1024]⟩
abbrev S64x2x512x1x1 : Shape := ⟨5, ![64, 2, 512, 1, 1]⟩
abbrev S64x512x1x1 : Shape := ⟨4, ![64, 512, 1, 1]⟩
abbrev S64x1x512x1x1 : Shape := ⟨5, ![64, 1, 512, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S64x2x512x32x32, .f32⟩
  | .hbm, ⟨1, _⟩ => ⟨S32x512, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S1024x32, .f32⟩
  | .hbm, ⟨7, _⟩ => ⟨S_, .f32⟩
  | .hbm, ⟨8, _⟩ => ⟨S64x512x32x32, .f32⟩
  | .hbm, ⟨9, _⟩ => ⟨S_, .f32⟩
  | .hbm, ⟨10, _⟩ => ⟨S64x512, .f32⟩
  | .hbm, ⟨11, _⟩ => ⟨S_, .f32⟩
  | .hbm, ⟨12, _⟩ => ⟨S64x512, .f32⟩
  | .hbm, ⟨13, _⟩ => ⟨S64x512, .f32⟩
  | .hbm, ⟨14, _⟩ => ⟨S64x32, .f32⟩
  | .hbm, ⟨15, _⟩ => ⟨S1x32, .f32⟩
  | .hbm, ⟨16, _⟩ => ⟨S64x32, .f32⟩
  | .hbm, ⟨17, _⟩ => ⟨S64x32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S1x32, .f32⟩
  | .hbm, ⟨24, _⟩ => ⟨S64x32, .f32⟩
  | .hbm, ⟨25, _⟩ => ⟨S64x32, .f32⟩
  | .hbm, ⟨26, _⟩ => ⟨S1x32, .f32⟩
  | .hbm, ⟨27, _⟩ => ⟨S64x32, .f32⟩
  | .hbm, ⟨28, _⟩ => ⟨S64x32, .f32⟩
  | .hbm, ⟨29, _⟩ => ⟨S_, .f32⟩
  | .hbm, ⟨30, _⟩ => ⟨S64x32, .f32⟩
  | .hbm, ⟨31, _⟩ => ⟨S64x32, .f32⟩
  | .hbm, ⟨32, _⟩ => ⟨S64x1024, .f32⟩
  | .hbm, ⟨33, _⟩ => ⟨S64x2x512x1x1, .f32⟩
  | .hbm, ⟨34, _⟩ => ⟨S_, .f32⟩
  | .hbm, ⟨35, _⟩ => ⟨S64x512x1x1, .f32⟩
  | .hbm, ⟨36, _⟩ => ⟨S_, .f32⟩
  | .hbm, ⟨37, _⟩ => ⟨S64x512x1x1, .f32⟩
  | .hbm, ⟨38, _⟩ => ⟨S64x512x1x1, .f32⟩
  | .hbm, ⟨39, _⟩ => ⟨S64x1x512x1x1, .f32⟩
  | .hbm, ⟨40, _⟩ => ⟨S64x2x512x1x1, .f32⟩
  | .hbm, ⟨41, _⟩ => ⟨S64x2x512x1x1, .f32⟩
  | .hbm, ⟨42, _⟩ => ⟨S64x2x512x1x1, .f32⟩
  | .hbm, ⟨43, _⟩ => ⟨S_, .f32⟩
  | .hbm, ⟨44, _⟩ => ⟨S64x512x1x1, .f32⟩
  | .hbm, ⟨45, _⟩ => ⟨S64x1x512x1x1, .f32⟩
  | .hbm, ⟨46, _⟩ => ⟨S64x2x512x1x1, .f32⟩
  | .hbm, ⟨47, _⟩ => ⟨S64x2x512x1x1, .f32⟩
  | _, _ => ⟨S64x2x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  reducesTo_S64x2x512x32x32_S64x512x32x32_d1 : S64x2x512x32x32.ReducesTo [1] S64x512x32x32
  h_S_ : 0 < S_.numel
  reducesTo_S64x512x32x32_S64x512_d2_3 : S64x512x32x32.ReducesTo [2, 3] S64x512
  bcast_S_S64x512 : S_.BroadcastsInDim S64x512 (![] : Fin 0 → Fin S64x512.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S32 : S_.BroadcastsInDim S32 (![] : Fin 0 → Fin S32.rank)
  bcast_S_S64x32 : S_.BroadcastsInDim S64x32 (![] : Fin 0 → Fin S64x32.rank)
  shapeCasts_S64x1024_S64x2x512x1x1 : S64x1024.ShapeCasts S64x2x512x1x1
  reducesTo_S64x2x512x1x1_S64x512x1x1_d1 : S64x2x512x1x1.ReducesTo [1] S64x512x1x1
  bcast_S_S64x512x1x1 : S_.BroadcastsInDim S64x512x1x1 (![] : Fin 0 → Fin S64x512x1x1.rank)
  bcast_S64x512x1x1_S64x1x512x1x1_0_2_3_4 : S64x512x1x1.BroadcastsInDim S64x1x512x1x1 (![0, 2, 3, 4] : Fin 4 → Fin S64x1x512x1x1.rank)
  bcast_S64x1x512x1x1_S64x2x512x1x1_0_1_2_3_4 : S64x1x512x1x1.BroadcastsInDim S64x2x512x1x1 (![0, 1, 2, 3, 4] : Fin 5 → Fin S64x2x512x1x1.rank)
  dot_S64x512_S32x512_S64x32_1_1_0_0_n_n_wf : DotDims.WF S64x512 S32x512 S64x32 [1] [1] [0] [0] [] []
  dot_S64x32_S1024x32_S64x1024_1_1_0_0_n_n_wf : DotDims.WF S64x32 S1024x32 S64x1024 [1] [1] [0] [0] [] []

variable [Facts₀]

def dot_S64x512_S32x512_S64x32_1_1_0_0_n_n : DotDims S64x512 S32x512 S64x32 where
  lhsContracting := [1]
  rhsContracting := [1]
  lhsNonContracting := [0]
  rhsNonContracting := [0]
  lhsBatch := []
  rhsBatch := []
  wf := dot_S64x512_S32x512_S64x32_1_1_0_0_n_n_wf
def dot_S64x32_S1024x32_S64x1024_1_1_0_0_n_n : DotDims S64x32 S1024x32 S64x1024 where
  lhsContracting := [1]
  rhsContracting := [1]
  lhsNonContracting := [0]
  rhsNonContracting := [0]
  lhsBatch := []
  rhsBatch := []
  wf := dot_S64x32_S1024x32_S64x1024_1_1_0_0_n_n_wf

class Facts : Prop extends Facts₀ where

variable [Facts]
-- ==== Proof.Spec.lean ====
/-
  The arithmetic both programs compute, written once on the extended reals, index by index.

  For a batch entry b and a channel c the two paths of the input are added and averaged over the 32 x 32 spatial
  positions (pool: the sum over p, h, w times 2^-10). The pooled vector is sent through a 512 -> 32 linear map, an
  inference-mode batch normalisation (subtract the running mean, scale by gamma / sqrt (var + eps), add beta) and a
  clamp at zero (hidden). A 32 -> 1024 linear map gives, for every channel, one logit per path: row c of the second
  weight matrix for path 0 and row 512 + c for path 1 (logit, lo, hi). The result is the two-way softmax of that
  pair of logits (share, weights), laid out as [batch, path, channel, 1, 1].
-/
import Idealize.ShloMosaic.PureOps.Ideal
import Idealize.ShloMosaic.Lib.ValueIdx

noncomputable section

namespace Cert.SelectAttn

open Idealize.ShloMosaic Idealize.ShloMosaic.ValueIdx
open scoped BigOperators

/-- The spatial mean's factor, 2^-10 = 1 / (32 * 32), as the pattern the kernel spells. -/
abbrev invHW : EReal := Ideal.ofBits .f32 0x3A800000#32
/-- The guard added to the running variance: the pattern both programs spell for 1e-5. -/
abbrev eps : EReal := Ideal.ofBits .f32 0x3727C5AC#32

variable (x : (⟨5, ![64, 2, 512, 32, 32]⟩ : Shape).Idx → EReal) (wr : (⟨2, ![32, 512]⟩ : Shape).Idx → EReal)
  (g be mu va : (⟨1, ![32]⟩ : Shape).Idx → EReal) (ws : (⟨2, ![1024, 32]⟩ : Shape).Idx → EReal)

/-- The two paths added and averaged over the spatial positions. -/
def pool (b : Fin 64) (c : Fin 512) : EReal :=
  (∑ p : Fin 2, ∑ h : Fin 32, ∑ w : Fin 32, x (ix5 b p c h w)) * invHW

/-- The reduced, normalised and clamped feature a of batch entry b. -/
def hidden (b : Fin 64) (a : Fin 32) : EReal :=
  max (((∑ c : Fin 512, pool x b c * wr (ix2 a c)) - mu (ix1 a)) * (g (ix1 a) * Ideal.rsqrt (va (ix1 a) + eps))
    + be (ix1 a)) 0

/-- The logit of batch entry b for row k of the second weight matrix. -/
def logit (b : Fin 64) (k : Fin 1024) : EReal :=
  ∑ a : Fin 32, hidden x wr g be mu va b a * ws (ix2 k a)

/-- Channel c's row for path 0. -/
def lo (c : Fin 512) : Fin 1024 := ⟨c.val, Nat.lt_trans c.isLt (by decide)⟩
/-- Channel c's row for path 1. -/
def hi (c : Fin 512) : Fin 1024 := ⟨512 + c.val, by have := c.isLt; omega⟩

/-- The softmax weight of the logit l among the pair l0, l1, shifted by the pair's maximum. -/
def share (l0 l1 l : EReal) : EReal :=
  Ideal.div (Ideal.exp (l - max l0 l1)) (Ideal.exp (l0 - max l0 l1) + Ideal.exp (l1 - max l0 l1))

/-- The result array: at (b, p, c, 0, 0) the softmax weight of path p among the two logits of channel c. -/
def weights : (⟨5, ![64, 2, 512, 1, 1]⟩ : Shape).Idx → EReal := fun i =>
  share (logit x wr g be mu va ws (i 0) (lo (i 2))) (logit x wr g be mu va ws (i 0) (hi (i 2)))
    (if (i 1).val = 0 then logit x wr g be mu va ws (i 0) (lo (i 2)) else logit x wr g be mu va ws (i 0) (hi (i 2)))

end Cert.SelectAttn

end
-- ==== Proof.KRun.lean ====
/-
  The idealized kernel program's run with its RESULT named. The program is five segments: the reshape of x to
  [64, 2, 512, 1024]; the pooling region; the two slices of the second weight matrix and the four reshapes of the
  batch-normalisation vectors to rows; the attention region; the stacking of the two outputs. Every weakly fair
  execution terminates without a fault with each argument as launched and with the result buffer at the value the
  fold of the five segments over the launch memory leaves there (W5 at the result's reference): the launch theorem
  for a program of several regions over the segments of the frame certificate, its last thread state read at the
  result buffer as well as at the arguments.
-/
import proofs.«120831_j11776800325704_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the fold's
    value and every argument as launched. -/
theorem run_result : θ_run defs (onTc (τ := τ) (main (F := F))) ⟨m, fun _ => 0, ρ⟩ (fun r => ∀ c : Dev nD,
      r.2.mem ((c.tc : Thread nD τ).loc main_v12) = W5 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v12 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Result

end
-- ==== Proof.KPool.lean ====
/-
  The pooling region, read as a value. Its input is x reshaped to [64, 2, 512, 1024] (batch, path, channel, spatial
  position); the grid has 8 x 4 points, and point (i, j) takes the block of batch entries 8i .. 8i+7 and channels
  128j .. 128j+127 with both paths and every spatial position. The body adds a block's entries over the spatial
  axis, then over the path axis, and multiplies by 2^-10, so what a point writes back is its block of ONE function
  of the whole input (pooled): entry (b, c) is the sum over the paths and positions of the input at (b, ., c, .),
  times 2^-10. The 32 output blocks tile the [64, 512] array, so after the region the array IS that function.
  Everything is stated for any contents V of the buffers when the region is entered.
-/
import proofs.«120831_j11776800325704_2_alg».proof.Proof.Gen.KernelIdeal.Frame
import proofs.«120831_j11776800325704_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pool

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- Entry (b, c) of the pooled array: the input added over the two paths and the 1024 spatial positions, times 2^-10. -/
def poolRow (A : S64x2x512x1024.Idx → EReal) (b : Fin 64) (c : Fin 512) : EReal :=
  (∑ a : Fin 2, ∑ k : Fin 1024, A (ix4 b a c k)) * Cert.SelectAttn.invHW

/-- The pooled array as one function of the reshaped input. -/
def pooled (A : S64x2x512x1024.Idx → EReal) : S64x512.Idx → EReal := fun i => poolRow A (i 0) (i 1)

/-- The body's result at (p, q) of a block: the block added over its path axis and its spatial axis, times 2^-10. -/
theorem pay_pool (x0 : FVec Ideal S8x2x128x1024 .f32) (p : Fin 8) (q : Fin 128) :
    k0_pay1 (F := Ideal) x0 (ix2 p q) = (∑ a : Fin 2, ∑ k : Fin 1024, x0 (ix4 p a q k)) * Cert.SelectAttn.invHW := by
  unfold k0_pay1
  simp only [shapeCast_self]
  show (multiReduction .add [1] S8x128 (multiReduction .add [3] S8x2x128 x0 _ _ _ _) _ _ _ _ (ix2 p q)) * Ideal.ofBits .f32 0x3A800000#32 = _
  refine congrArg (· * _) ?_
  refine (Ideal.multiReduction_add_single _ _ _ _ _ (ix2 p q)).trans ?_
  refine Finset.sum_congr rfl fun a _ => ?_
  refine (Ideal.multiReduction_add_single _ _ _ _ _ _).trans ?_
  refine Finset.sum_congr rfl fun k _ => ?_
  exact congrArg x0 (funext fun d => Fin.ext (by match d with | ⟨0,_⟩ => rfl | ⟨1,_⟩ => rfl | ⟨2,_⟩ => rfl | ⟨3,_⟩ => rfl))

theorem zero2 : (![0, 0] : Fin 2 → Nat) = fun _ => 0 := funext fun a => by fin_cases a <;> rfl
theorem zero4 : (![0, 0, 0, 0] : Fin 4 → Nat) = fun _ => 0 := funext fun a => by fin_cases a <;> rfl

/-- The two index maps over the grid: the input block moves with the output block on the batch and channel axes
    and stays at 0 on the path and spatial axes; the output's block indices stay in 8 x 4. -/
theorem block_indices : ∀ t : Fin cfg0.N, win0_0.index t (0 : Fin 4) = win0_1.index t (0 : Fin 2)
    ∧ win0_0.index t (1 : Fin 4) = 0
    ∧ win0_0.index t (2 : Fin 4) = win0_1.index t (1 : Fin 2)
    ∧ win0_0.index t (3 : Fin 4) = 0
    ∧ win0_1.index t (0 : Fin 2) ≤ 7 ∧ win0_1.index t (1 : Fin 2) ≤ 3 :=
  (by decide +kernel : ∀ t : Fin grid0.N, _)

/-- Every block of the 8 x 4 tiling is some point's. -/
theorem block_onto : ∀ (q0 : Fin 8) (q1 : Fin 4), ∃ t : Fin cfg0.N, win0_1.index t = ![q0.val, q1.val] :=
  (by decide +kernel : ∀ (q0 : Fin 8) (q1 : Fin 4), ∃ t : Fin grid0.N, win0_1.index t = ![q0.val, q1.val])

/-- What point t writes back is block t of the pooled array of the region's input. -/
theorem flushed_eq (c : Dev nD) (t : Fin cfg0.N) :
    (dat0 V c).flushed 1 t = ((cfg0.win 1).blk t).view.read (Elt Ideal) (pooled (V c (Pipeline.arrRef spec0 0))) := by
  show (cfg0.win 1).cut (grid0.coords t) ((dat0 V c).after 1 t) = _
  rw [after0_1]
  unfold out0_1
  rw [View.canon_unit_zero zero2]
  simp only [View.ld_unit_zero (S := S8x2x128x1024) zero4]
  obtain ⟨e0, e1, e2, e3, e4, e5⟩ := block_indices t
  funext j
  obtain ⟨p, q, rfl⟩ : ∃ (p : Fin 8) (q : Fin 128), j = ix2 p q := ⟨j 0, j 1, eq_ix2 j⟩
  show k0_pay1 (F := Ideal) (iblk0 V c 0 t) (ix2 p q) = pooled (V c (Pipeline.arrRef spec0 0)) (((cfg0.win 1).blk t).view.emb (ix2 p q))
  refine (pay_pool (iblk0 V c 0 t) p q).trans ?_
  unfold pooled poolRow
  refine congrArg (· * _) (Finset.sum_congr rfl fun a _ => Finset.sum_congr rfl fun k _ => ?_)
  show V c (Pipeline.arrRef spec0 0) (((cfg0.win 0).blk t).view.emb (ix4 p a q k)) = V c (Pipeline.arrRef spec0 0) _
  refine congrArg _ (funext fun d => Fin.ext ?_)
  match d with
  | ⟨0, _⟩ => show win0_0.index t (0 : Fin 4) * 8 + 1 * p.val = win0_1.index t (0 : Fin 2) * 8 + 1 * p.val; omega
  | ⟨1, _⟩ => show win0_0.index t (1 : Fin 4) * 2 + 1 * a.val = a.val; omega
  | ⟨2, _⟩ => show win0_0.index t (2 : Fin 4) * 128 + 1 * q.val = win0_1.index t (1 : Fin 2) * 128 + 1 * q.val; omega
  | ⟨3, _⟩ => show win0_0.index t (3 : Fin 4) * 1024 + 1 * k.val = k.val; omega

/-- An index of the [64, 512] array is in point t's block iff each coordinate is in the block's range on its axis. -/
theorem mem_blk (t : Fin cfg0.N) (i : S64x512.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v1).slice (win0_1.rect t)).set ↔ _
  rw [View.set_slice_whole, Rect.mem_set_unit]
  exact Iff.rfl

/-- Every entry of the array is in some point's block: the point of block (b / 8, c / 128). -/
theorem cover (i : S64x512.Idx) : ∃ t : Fin cfg0.N, (cfg0.win 1).flush t = true ∧ i ∈ ((cfg0.win 1).blk t).view.set := by
  have hi0 : (i 0).val < 64 := (i 0).isLt
  have hi1 : (i 1).val < 512 := (i 1).isLt
  obtain ⟨t, ht⟩ := block_onto ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [mem_blk]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- After the region the output array is the pooled array of the region's input. -/
theorem final (c : Dev nD) : (dat0 V c).arrAt 1 cfg0.N = pooled (V c (Pipeline.arrRef spec0 0)) :=
  (dat0 V c).arrAt_eq_of_cover 1 (pooled (V c (Pipeline.arrRef spec0 0))) (fun t _ => flushed_eq V c t) cover

end Cert.KernelIdeal.Pool

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.KAttn.lean ====
/-
  The attention region, read as a value. Its grid has one point and every window's block is its whole array: the
  pooled [64, 512] array, the [32, 512] reducing weights, the four batch-normalisation rows [1, 32] (gamma, beta,
  running mean, running variance), and the two [512, 32] halves of the second weight matrix. The body computes, for
  batch entry b, the hidden feature a (hid: the pooled row times row a of the reducing weights, minus the mean,
  times gamma * rsqrt (variance + eps), plus beta, clamped at zero), then for channel c one logit per half (lgt: the
  hidden row times row c of that half), and stores the two-way softmax of the pair: the first half's weight in
  output 0 and the second half's in output 1 (att0, att1). A change of float format is the identity on the extended
  reals, and a matrix-unit product into a zero accumulator is the plain sum of products.
  Everything is stated for any contents V of the buffers when the region is entered.
-/
import proofs.«120831_j11776800325704_2_alg».proof.Proof.Gen.KernelIdeal.Frame
import proofs.«120831_j11776800325704_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«120831_j11776800325704_2_alg».proof.Proof.LibDot
set_option maxRecDepth 16384

noncomputable section

namespace Cert.KernelIdeal.Attn

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

open Cert.SelectAttn (eps share)

/-- The hidden feature a of batch entry b, from the pooled array, the reducing weights and the four rows. -/
def hid (s : S64x512.Idx → EReal) (wr : S32x512.Idx → EReal) (g be mu va : S1x32.Idx → EReal) (b : Fin 64) (a : Fin 32) : EReal :=
  max (((∑ c : Fin 512, s (ix2 b c) * wr (ix2 a c)) - mu (ix2 0 a)) * (g (ix2 0 a) * Ideal.rsqrt (va (ix2 0 a) + eps)) + be (ix2 0 a)) 0

/-- The logit of batch entry b and channel c for one half w of the second weight matrix. -/
def lgt (s : S64x512.Idx → EReal) (wr : S32x512.Idx → EReal) (g be mu va : S1x32.Idx → EReal) (w : S512x32.Idx → EReal) (b : Fin 64) (c : Fin 512) : EReal :=
  ∑ a : Fin 32, hid s wr g be mu va b a * w (ix2 c a)

/-- Output 0: the softmax weight of the first half's logit. -/
def att0 (s : S64x512.Idx → EReal) (wr : S32x512.Idx → EReal) (g be mu va : S1x32.Idx → EReal) (w0 w1 : S512x32.Idx → EReal) : S64x512.Idx → EReal :=
  fun i => share (lgt s wr g be mu va w0 (i 0) (i 1)) (lgt s wr g be mu va w1 (i 0) (i 1)) (lgt s wr g be mu va w0 (i 0) (i 1))

/-- Output 1: the softmax weight of the second half's logit. -/
def att1 (s : S64x512.Idx → EReal) (wr : S32x512.Idx → EReal) (g be mu va : S1x32.Idx → EReal) (w0 w1 : S512x32.Idx → EReal) : S64x512.Idx → EReal :=
  fun i => share (lgt s wr g be mu va w0 (i 0) (i 1)) (lgt s wr g be mu va w1 (i 0) (i 1)) (lgt s wr g be mu va w1 (i 0) (i 1))

/-! ## The body's values at an index -/

/-- The clamped, normalised feature the body forms before its second pair of products. -/
theorem pay_hid (v0 : FVec Ideal S64x512 .f32) (v3 : FVec Ideal S32x512 .f32) (v7 v9 v11 v13 : FVec Ideal S1x32 .f32) (b : Fin 64) (a : Fin 32) :
    k1_pay7 (F := Ideal) v0 v3 v7 v9 v11 v13 (ix2 b a) = hid v0 v3 v7 v9 v11 v13 b a := by
  have hmm : matmul dot_S64x512_S512x32_S64x32_1_0_0_1_n_n none (truncf .bf16 v0 bitsLt_bf16_f32 : FVec Ideal S64x512 .bf16)
      (transpose S512x32 [1, 0] (truncf .bf16 v3 bitsLt_bf16_f32 : FVec Ideal S32x512 .bf16) transposes_S32x512_p1_0_S512x32) (constant S64x32 .f32 0x00000000#32) (ix2 b a)
      = ∑ c : Fin 512, v0 (ix2 b c) * v3 (ix2 a c) := by
    refine (Cert.LibDot.matmul_zero_apply dot_S64x512_S512x32_S64x32_1_0_0_1_n_n_wf none _ _ b a).trans ?_
    refine Finset.sum_congr rfl fun c _ => ?_
    rw [transpose_ix2_apply]
    rfl
  unfold k1_pay7
  simp only [shapeCast_self]
  show max (((matmul _ none _ _ _ (ix2 b a)) - broadcastTo S64x32 v11 broadcasts_S1x32_S64x32 (ix2 b a)) * (broadcastTo S64x32 _ broadcasts_S1x32_S64x32 (ix2 b a)) + broadcastTo S64x32 v9 broadcasts_S1x32_S64x32 (ix2 b a)) (Ideal.ofBits .f32 0x00000000#32) = _
  rw [hmm, broadcastTo_1b_ab_apply, broadcastTo_1b_ab_apply, broadcastTo_1b_ab_apply, Ideal.ofBits_zero_f32]
  rfl

/-- The first half's logits. -/
theorem pay_lgt0 (v0 : FVec Ideal S64x512 .f32) (v3 : FVec Ideal S32x512 .f32) (v7 v9 v11 v13 : FVec Ideal S1x32 .f32) (v28 : FVec Ideal S512x32 .f32) (b : Fin 64) (c : Fin 512) :
    k1_pay8 (F := Ideal) v0 v3 v7 v9 v11 v13 v28 (ix2 b c) = lgt v0 v3 v7 v9 v11 v13 v28 b c := by
  unfold k1_pay8
  simp only [shapeCast_self]
  refine (Cert.LibDot.matmul_zero_apply dot_S64x32_S32x512_S64x512_1_0_0_1_n_n_wf none _ _ b c).trans ?_
  refine Finset.sum_congr rfl fun a _ => ?_
  rw [pay_hid, transpose_ix2_apply]
  rfl

/-- The second half's logits. -/
theorem pay_lgt1 (v0 : FVec Ideal S64x512 .f32) (v3 : FVec Ideal S32x512 .f32) (v7 v9 v11 v13 : FVec Ideal S1x32 .f32) (v31 : FVec Ideal S512x32 .f32) (b : Fin 64) (c : Fin 512) :
    k1_pay9 (F := Ideal) v0 v3 v7 v9 v11 v13 v31 (ix2 b c) = lgt v0 v3 v7 v9 v11 v13 v31 b c := by
  unfold k1_pay9
  simp only [shapeCast_self]
  refine (Cert.LibDot.matmul_zero_apply dot_S64x32_S32x512_S64x512_1_0_0_1_n_n_wf none _ _ b c).trans ?_
  refine Finset.sum_congr rfl fun a _ => ?_
  rw [pay_hid, transpose_ix2_apply]
  rfl

/-- The two stored values are the softmax weights of the pair of logits, entry by entry. -/
theorem pay_share0 (u v : FVec Ideal S64x512 .f32) (i : S64x512.Idx) : k1_pay5 (F := Ideal) u v i = share (u i) (v i) (u i) := rfl
theorem pay_share1 (u v : FVec Ideal S64x512 .f32) (i : S64x512.Idx) : k1_pay6 (F := Ideal) u v i = share (u i) (v i) (v i) := rfl

/-! ## The one point's blocks are the whole arrays -/

variable (V : (c : Dev nD) → (b : Ref sig .tc) → Buf (Elt Ideal) ((c : Thread nD τ).loc b))

theorem zero2 : (![0, 0] : Fin 2 → Nat) = fun _ => 0 := funext fun a => by fin_cases a <;> rfl

/-- Every window's block index is 0 on both axes at the grid's one point. -/
theorem at_origin : ∀ t : Fin cfg1.N, (∀ a : Fin 2, win1_0.index t a = 0)
    ∧ (∀ a : Fin 2, win1_1.index t a = 0)
    ∧ (∀ a : Fin 2, win1_2.index t a = 0)
    ∧ (∀ a : Fin 2, win1_3.index t a = 0)
    ∧ (∀ a : Fin 2, win1_4.index t a = 0)
    ∧ (∀ a : Fin 2, win1_5.index t a = 0)
    ∧ (∀ a : Fin 2, win1_6.index t a = 0)
    ∧ (∀ a : Fin 2, win1_7.index t a = 0)
    ∧ (∀ a : Fin 2, win1_8.index t a = 0)
    ∧ (∀ a : Fin 2, win1_9.index t a = 0) :=
  (by decide +kernel : ∀ t : Fin grid1.N, _)

theorem whole0 (c : Dev nD) (t : Fin cfg1.N) (y : S64x512.Idx) : iblk1 V c 0 t y = V c (Pipeline.arrRef spec1 0) y := by
  obtain ⟨h0, h1, h2, h3, h4, h5, h6, h7, h8, h9⟩ := at_origin t
  show V c (Pipeline.arrRef spec1 0) (((cfg1.win 0).blk t).view.emb y) = V c (Pipeline.arrRef spec1 0) y
  refine congrArg _ (funext fun a => Fin.ext ?_)
  match a with
  | ⟨0, _⟩ => show win1_0.index t (0 : Fin 2) * 64 + 1 * (y 0).val = (y 0).val; have := h0 0; omega
  | ⟨1, _⟩ => show win1_0.index t (1 : Fin 2) * 512 + 1 * (y 1).val = (y 1).val; have := h0 1; omega

theorem whole1 (c : Dev nD) (t : Fin cfg1.N) (y : S32x512.Idx) : iblk1 V c 1 t y = V c (Pipeline.arrRef spec1 1) y := by
  obtain ⟨h0, h1, h2, h3, h4, h5, h6, h7, h8, h9⟩ := at_origin t
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 32 + 1 * (y 0).val = (y 0).val; have := h1 0; omega
  | ⟨1, _⟩ => show win1_1.index t (1 : Fin 2) * 512 + 1 * (y 1).val = (y 1).val; have := h1 1; omega

theorem whole2 (c : Dev nD) (t : Fin cfg1.N) (y : S1x32.Idx) : iblk1 V c 2 t y = V c (Pipeline.arrRef spec1 2) y := by
  obtain ⟨h0, h1, h2, h3, h4, h5, h6, h7, h8, h9⟩ := at_origin t
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1 + 1 * (y 0).val = (y 0).val; have := h2 0; omega
  | ⟨1, _⟩ => show win1_2.index t (1 : Fin 2) * 32 + 1 * (y 1).val = (y 1).val; have := h2 1; omega

theorem whole3 (c : Dev nD) (t : Fin cfg1.N) (y : S1x32.Idx) : iblk1 V c 3 t y = V c (Pipeline.arrRef spec1 3) y := by
  obtain ⟨h0, h1, h2, h3, h4, h5, h6, h7, h8, h9⟩ := at_origin t
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 1 + 1 * (y 0).val = (y 0).val; have := h3 0; omega
  | ⟨1, _⟩ => show win1_3.index t (1 : Fin 2) * 32 + 1 * (y 1).val = (y 1).val; have := h3 1; omega

theorem whole4 (c : Dev nD) (t : Fin cfg1.N) (y : S1x32.Idx) : iblk1 V c 4 t y = V c (Pipeline.arrRef spec1 4) y := by
  obtain ⟨h0, h1, h2, h3, h4, h5, h6, h7, h8, h9⟩ := at_origin t
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; have := h4 0; omega
  | ⟨1, _⟩ => show win1_4.index t (1 : Fin 2) * 32 + 1 * (y 1).val = (y 1).val; have := h4 1; omega

theorem whole5 (c : Dev nD) (t : Fin cfg1.N) (y : S1x32.Idx) : iblk1 V c 5 t y = V c (Pipeline.arrRef spec1 5) y := by
  obtain ⟨h0, h1, h2, h3, h4, h5, h6, h7, h8, h9⟩ := at_origin t
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 1 + 1 * (y 0).val = (y 0).val; have := h5 0; omega
  | ⟨1, _⟩ => show win1_5.index t (1 : Fin 2) * 32 + 1 * (y 1).val = (y 1).val; have := h5 1; omega

theorem whole6 (c : Dev nD) (t : Fin cfg1.N) (y : S512x32.Idx) : iblk1 V c 6 t y = V c (Pipeline.arrRef spec1 6) y := by
  obtain ⟨h0, h1, h2, h3, h4, h5, h6, h7, h8, h9⟩ := at_origin t
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 512 + 1 * (y 0).val = (y 0).val; have := h6 0; omega
  | ⟨1, _⟩ => show win1_6.index t (1 : Fin 2) * 32 + 1 * (y 1).val = (y 1).val; have := h6 1; omega

theorem whole7 (c : Dev nD) (t : Fin cfg1.N) (y : S512x32.Idx) : iblk1 V c 7 t y = V c (Pipeline.arrRef spec1 7) y := by
  obtain ⟨h0, h1, h2, h3, h4, h5, h6, h7, h8, h9⟩ := at_origin t
  show V c (Pipeline.arrRef spec1 7) (((cfg1.win 7).blk t).view.emb y) = V c (Pipeline.arrRef spec1 7) y
  refine congrArg _ (funext fun a => Fin.ext ?_)
  match a with
  | ⟨0, _⟩ => show win1_7.index t (0 : Fin 2) * 512 + 1 * (y 0).val = (y 0).val; have := h7 0; omega
  | ⟨1, _⟩ => show win1_7.index t (1 : Fin 2) * 32 + 1 * (y 1).val = (y 1).val; have := h7 1; omega

theorem lgt_whole6 (c : Dev nD) (t : Fin cfg1.N) (b : Fin 64) (q : Fin 512) :
    lgt (iblk1 V c 0 t) (iblk1 V c 1 t) (iblk1 V c 2 t) (iblk1 V c 3 t) (iblk1 V c 4 t) (iblk1 V c 5 t) (iblk1 V c 6 t) b q = lgt (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) b q := by
  unfold lgt hid
  simp only [whole0 V c t, whole1 V c t, whole2 V c t, whole3 V c t, whole4 V c t, whole5 V c t, whole6 V c t]

theorem lgt_whole7 (c : Dev nD) (t : Fin cfg1.N) (b : Fin 64) (q : Fin 512) :
    lgt (iblk1 V c 0 t) (iblk1 V c 1 t) (iblk1 V c 2 t) (iblk1 V c 3 t) (iblk1 V c 4 t) (iblk1 V c 5 t) (iblk1 V c 7 t) b q = lgt (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 7)) b q := by
  unfold lgt hid
  simp only [whole0 V c t, whole1 V c t, whole2 V c t, whole3 V c t, whole4 V c t, whole5 V c t, whole7 V c t]

/-- The one point's block of output 0 is the whole array: an index read through it is itself. -/
theorem emb8 (t : Fin cfg1.N) (y : S64x512.Idx) : ((cfg1.win 8).blk t).view.emb y = y := by
  obtain ⟨h0, h1, h2, h3, h4, h5, h6, h7, h8, h9⟩ := at_origin t
  refine funext fun a => Fin.ext ?_
  match a with
  | ⟨0, _⟩ => show win1_8.index t (0 : Fin 2) * 64 + 1 * (y 0).val = (y 0).val; have := h8 0; omega
  | ⟨1, _⟩ => show win1_8.index t (1 : Fin 2) * 512 + 1 * (y 1).val = (y 1).val; have := h8 1; omega

theorem mem_blk8 (t : Fin cfg1.N) (i : S64x512.Idx) : i ∈ ((cfg1.win 8).blk t).view.set := by
  obtain ⟨h0, h1, h2, h3, h4, h5, h6, h7, h8, h9⟩ := at_origin t
  show i ∈ ((View.whole main_v8_0).slice (win1_8.rect t)).set
  rw [View.set_slice_whole, Rect.mem_set_unit]
  intro a
  match a with
  | ⟨0, _⟩ => show win1_8.index t (0 : Fin 2) * 64 ≤ (i 0).val ∧ (i 0).val < win1_8.index t (0 : Fin 2) * 64 + 64; have := h8 0; have hi : (i 0).val < 64 := (i 0).isLt; omega
  | ⟨1, _⟩ => show win1_8.index t (1 : Fin 2) * 512 ≤ (i 1).val ∧ (i 1).val < win1_8.index t (1 : Fin 2) * 512 + 512; have := h8 1; have hi : (i 1).val < 512 := (i 1).isLt; omega

/-- The one point's block of output 1 is the whole array: an index read through it is itself. -/
theorem emb9 (t : Fin cfg1.N) (y : S64x512.Idx) : ((cfg1.win 9).blk t).view.emb y = y := by
  obtain ⟨h0, h1, h2, h3, h4, h5, h6, h7, h8, h9⟩ := at_origin t
  refine funext fun a => Fin.ext ?_
  match a with
  | ⟨0, _⟩ => show win1_9.index t (0 : Fin 2) * 64 + 1 * (y 0).val = (y 0).val; have := h9 0; omega
  | ⟨1, _⟩ => show win1_9.index t (1 : Fin 2) * 512 + 1 * (y 1).val = (y 1).val; have := h9 1; omega

theorem mem_blk9 (t : Fin cfg1.N) (i : S64x512.Idx) : i ∈ ((cfg1.win 9).blk t).view.set := by
  obtain ⟨h0, h1, h2, h3, h4, h5, h6, h7, h8, h9⟩ := at_origin t
  show i ∈ ((View.whole main_v8_1).slice (win1_9.rect t)).set
  rw [View.set_slice_whole, Rect.mem_set_unit]
  intro a
  match a with
  | ⟨0, _⟩ => show win1_9.index t (0 : Fin 2) * 64 ≤ (i 0).val ∧ (i 0).val < win1_9.index t (0 : Fin 2) * 64 + 64; have := h9 0; have hi : (i 0).val < 64 := (i 0).isLt; omega
  | ⟨1, _⟩ => show win1_9.index t (1 : Fin 2) * 512 ≤ (i 1).val ∧ (i 1).val < win1_9.index t (1 : Fin 2) * 512 + 512; have := h9 1; have hi : (i 1).val < 512 := (i 1).isLt; omega

/-! ## What the region leaves in its two output arrays -/

/-- What the one point writes back to output 0: the whole softmax-weight array of the region's eight inputs. -/
theorem flushed8_eq (c : Dev nD) (t : Fin cfg1.N) :
    (dat1 V c).flushed 8 t = ((cfg1.win 8).blk t).view.read (Elt Ideal) (att0 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7))) := by
  show (cfg1.win 8).cut (grid1.coords t) ((dat1 V c).after 8 t) = _
  rw [after1_8]
  unfold out1_8
  rw [View.canon_unit_zero zero2]
  simp only [View.ld_unit_zero (S := S64x512) zero2, View.ld_unit_zero (S := S32x512) zero2, View.ld_unit_zero (S := S1x32) zero2, View.ld_unit_zero (S := S512x32) zero2]
  funext j
  obtain ⟨b, q, rfl⟩ : ∃ (b : Fin 64) (q : Fin 512), j = ix2 b q := ⟨j 0, j 1, eq_ix2 j⟩
  show k1_pay5 (F := Ideal) (k1_pay8 (F := Ideal) (iblk1 V c 0 t) (iblk1 V c 1 t) (iblk1 V c 2 t) (iblk1 V c 3 t) (iblk1 V c 4 t) (iblk1 V c 5 t) (iblk1 V c 6 t)) (k1_pay9 (F := Ideal) (iblk1 V c 0 t) (iblk1 V c 1 t) (iblk1 V c 2 t) (iblk1 V c 3 t) (iblk1 V c 4 t) (iblk1 V c 5 t) (iblk1 V c 7 t)) (ix2 b q)
    = att0 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (((cfg1.win 8).blk t).view.emb (ix2 b q))
  rw [emb8]
  refine (pay_share0 _ _ (ix2 b q)).trans ?_
  rw [pay_lgt0 (iblk1 V c 0 t) (iblk1 V c 1 t) (iblk1 V c 2 t) (iblk1 V c 3 t) (iblk1 V c 4 t) (iblk1 V c 5 t) (iblk1 V c 6 t) b q, pay_lgt1 (iblk1 V c 0 t) (iblk1 V c 1 t) (iblk1 V c 2 t) (iblk1 V c 3 t) (iblk1 V c 4 t) (iblk1 V c 5 t) (iblk1 V c 7 t) b q, lgt_whole6 V c t b q, lgt_whole7 V c t b q]
  rfl

/-- After the region output 0's array is that function of the region's inputs. -/
theorem final8 (c : Dev nD) : (dat1 V c).arrAt 8 cfg1.N = att0 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) :=
  (dat1 V c).arrAt_eq_of_cover 8 (att0 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7))) (fun t _ => flushed8_eq V c t) (fun i => ⟨t1_0, flush1_8 t1_0, mem_blk8 t1_0 i⟩)

/-- What the one point writes back to output 1: the whole softmax-weight array of the region's eight inputs. -/
theorem flushed9_eq (c : Dev nD) (t : Fin cfg1.N) :
    (dat1 V c).flushed 9 t = ((cfg1.win 9).blk t).view.read (Elt Ideal) (att1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7))) := by
  show (cfg1.win 9).cut (grid1.coords t) ((dat1 V c).after 9 t) = _
  rw [after1_9]
  unfold out1_9
  rw [View.canon_unit_zero zero2]
  simp only [View.ld_unit_zero (S := S64x512) zero2, View.ld_unit_zero (S := S32x512) zero2, View.ld_unit_zero (S := S1x32) zero2, View.ld_unit_zero (S := S512x32) zero2]
  funext j
  obtain ⟨b, q, rfl⟩ : ∃ (b : Fin 64) (q : Fin 512), j = ix2 b q := ⟨j 0, j 1, eq_ix2 j⟩
  show k1_pay6 (F := Ideal) (k1_pay8 (F := Ideal) (iblk1 V c 0 t) (iblk1 V c 1 t) (iblk1 V c 2 t) (iblk1 V c 3 t) (iblk1 V c 4 t) (iblk1 V c 5 t) (iblk1 V c 6 t)) (k1_pay9 (F := Ideal) (iblk1 V c 0 t) (iblk1 V c 1 t) (iblk1 V c 2 t) (iblk1 V c 3 t) (iblk1 V c 4 t) (iblk1 V c 5 t) (iblk1 V c 7 t)) (ix2 b q)
    = att1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (((cfg1.win 9).blk t).view.emb (ix2 b q))
  rw [emb9]
  refine (pay_share1 _ _ (ix2 b q)).trans ?_
  rw [pay_lgt0 (iblk1 V c 0 t) (iblk1 V c 1 t) (iblk1 V c 2 t) (iblk1 V c 3 t) (iblk1 V c 4 t) (iblk1 V c 5 t) (iblk1 V c 6 t) b q, pay_lgt1 (iblk1 V c 0 t) (iblk1 V c 1 t) (iblk1 V c 2 t) (iblk1 V c 3 t) (iblk1 V c 4 t) (iblk1 V c 5 t) (iblk1 V c 7 t) b q, lgt_whole6 V c t b q, lgt_whole7 V c t b q]
  rfl

/-- After the region output 1's array is that function of the region's inputs. -/
theorem final9 (c : Dev nD) : (dat1 V c).arrAt 9 cfg1.N = att1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) :=
  (dat1 V c).arrAt_eq_of_cover 9 (att1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7))) (fun t _ => flushed9_eq V c t) (fun i => ⟨t1_0, flush1_9 t1_0, mem_blk9 t1_0 i⟩)

end Cert.KernelIdeal.Attn

end
-- ==== Proof.KFold.lean ====
/-
  The fold of the program's five segments, read at the result buffer.
  The last stretch stacks the attention region's two output arrays: each [64, 512] array becomes [64, 1, 512], the
  two are joined along the new axis, and the [64, 2, 512] array is reshaped to [64, 2, 512, 1, 1]. The attention
  region's outputs are its two softmax-weight arrays of what it found at entry: the pooled array the pooling region
  left (of x reshaped to [64, 2, 512, 1024]), the reducing weights as launched, gamma, beta, the running mean and the
  running variance each reshaped to a row, and rows 0 .. 511 and 512 .. 1023 of the second weight matrix. No segment
  writes an argument, so the arguments are read at their launch contents. (value) is the composition.
-/
import proofs.«120831_j11776800325704_2_alg».proof.Proof.Gen.KernelIdeal.Frame
import proofs.«120831_j11776800325704_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«120831_j11776800325704_2_alg».proof.Proof.KPool
import proofs.«120831_j11776800325704_2_alg».proof.Proof.KAttn
set_option maxRecDepth 16384

noncomputable section

namespace Cert.KernelIdeal.Fold

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

open Idealize.ShloMosaic.StableHlo
open Cert.KernelIdeal.Pool (pooled)
open Cert.KernelIdeal.Attn (att0 att1)

/-- The two [64, 512] arrays stacked along a new path axis and given two trailing unit axes. -/
def stack (a0 a1 : S64x512.Idx → EReal) : S64x2x512x1x1.Idx → EReal :=
  shapeCast S64x2x512x1x1 (concatenate S64x2x512 1
    [⟨S64x1x512, broadcastInDim S64x1x512 ![0, 2] bcast_S64x512_S64x1x512_0_2 a0⟩,
     ⟨S64x1x512, broadcastInDim S64x1x512 ![0, 2] bcast_S64x512_S64x1x512_0_2 a1⟩]
    concatenates_S64x1x512_S64x1x512_S64x2x512_d1) shapeCasts_S64x2x512_S64x2x512x1x1

/-- The program's result as one function of its seven argument arrays. -/
def value (x : S64x2x512x32x32.Idx → EReal) (wr : S32x512.Idx → EReal) (g be mu va : S32.Idx → EReal) (ws : S1024x32.Idx → EReal) :
    S64x2x512x1x1.Idx → EReal :=
  stack
    (att0 (pooled (shapeCast S64x2x512x1024 x shapeCasts_S64x2x512x32x32_S64x2x512x1024)) wr
      (shapeCast S1x32 g shapeCasts_S32_S1x32) (shapeCast S1x32 be shapeCasts_S32_S1x32)
      (shapeCast S1x32 mu shapeCasts_S32_S1x32) (shapeCast S1x32 va shapeCasts_S32_S1x32)
      (extractStridedSlice S512x32 ![0, 0] ws slices_S1024x32_S512x32_0_0)
      (extractStridedSlice S512x32 ![512, 0] ws slices_S1024x32_S512x32_512_0))
    (att1 (pooled (shapeCast S64x2x512x1024 x shapeCasts_S64x2x512x32x32_S64x2x512x1024)) wr
      (shapeCast S1x32 g shapeCasts_S32_S1x32) (shapeCast S1x32 be shapeCasts_S32_S1x32)
      (shapeCast S1x32 mu shapeCasts_S32_S1x32) (shapeCast S1x32 va shapeCasts_S32_S1x32)
      (extractStridedSlice S512x32 ![0, 0] ws slices_S1024x32_S512x32_0_0)
      (extractStridedSlice S512x32 ![512, 0] ws slices_S1024x32_S512x32_512_0))

variable (m : (ℓ : Loc nD τ sig) → Buf (Elt Ideal) ℓ) (ρ : Dev nD → PrngReg)

/-! ## The arguments, after the pooling region, are as launched -/

theorem W2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results
  all_goals rfl

theorem W2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results
  all_goals rfl

theorem W2_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results
  all_goals rfl

theorem W2_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results
  all_goals rfl

theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results
  all_goals rfl

theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results
  all_goals rfl

/-! ## What each region finds at entry -/

/-- The pooling region's input: x reshaped to [64, 2, 512, 1024]. -/
theorem entry0 (c : Dev nD) : V1 m ρ c (Pipeline.arrRef spec0 0)
    = shapeCast S64x2x512x1024 (m ((c : Thread nD τ).loc main_arg0)) shapeCasts_S64x2x512x32x32_S64x2x512x1024 := by
  show StableHlo.after hostOps0 (W0 m ρ c) (Proc.devRef .tc main_v0) = _
  after_results
  all_goals rfl

/-- The attention region's first input is the pooled array the pooling region left. -/
theorem entry1_0 (c : Dev nD) : V3 m ρ c (Pipeline.arrRef spec1 0)
    = pooled (shapeCast S64x2x512x1024 (m ((c : Thread nD τ).loc main_arg0)) shapeCasts_S64x2x512x32x32_S64x2x512x1024) := by
  have h : V3 m ρ c (Pipeline.arrRef spec1 0) = (dat0 (V1 m ρ) c).arrAt 1 cfg0.N := by
    show StableHlo.after hostOps1 (W2 m ρ c) (Proc.devRef .tc main_v1) = _
    after_results
    all_goals exact W2_arr m ρ c 1
  rw [h, Cert.KernelIdeal.Pool.final (V1 m ρ) c, entry0 m ρ c]

theorem entry1_1 (c : Dev nD) : V3 m ρ c (Pipeline.arrRef spec1 1) = m ((c : Thread nD τ).loc main_arg1) := by
  show StableHlo.after hostOps1 (W2 m ρ c) (Proc.devRef .tc main_arg1) = _
  after_results
  all_goals exact W2_arg1 m ρ c

theorem entry1_2 (c : Dev nD) : V3 m ρ c (Pipeline.arrRef spec1 2)
    = shapeCast S1x32 (m ((c : Thread nD τ).loc main_arg2)) shapeCasts_S32_S1x32 := by
  show StableHlo.after hostOps1 (W2 m ρ c) (Proc.devRef .tc main_v4) = _
  after_results
  rw [W2_arg2 m ρ c]
  rfl

theorem entry1_3 (c : Dev nD) : V3 m ρ c (Pipeline.arrRef spec1 3)
    = shapeCast S1x32 (m ((c : Thread nD τ).loc main_arg3)) shapeCasts_S32_S1x32 := by
  show StableHlo.after hostOps1 (W2 m ρ c) (Proc.devRef .tc main_v5) = _
  after_results
  rw [W2_arg3 m ρ c]
  rfl

theorem entry1_4 (c : Dev nD) : V3 m ρ c (Pipeline.arrRef spec1 4)
    = shapeCast S1x32 (m ((c : Thread nD τ).loc main_arg4)) shapeCasts_S32_S1x32 := by
  show StableHlo.after hostOps1 (W2 m ρ c) (Proc.devRef .tc main_v6) = _
  after_results
  rw [W2_arg4 m ρ c]
  rfl

theorem entry1_5 (c : Dev nD) : V3 m ρ c (Pipeline.arrRef spec1 5)
    = shapeCast S1x32 (m ((c : Thread nD τ).loc main_arg5)) shapeCasts_S32_S1x32 := by
  show StableHlo.after hostOps1 (W2 m ρ c) (Proc.devRef .tc main_v7) = _
  after_results
  rw [W2_arg5 m ρ c]
  rfl

theorem entry1_6 (c : Dev nD) : V3 m ρ c (Pipeline.arrRef spec1 6)
    = extractStridedSlice S512x32 ![0, 0] (m ((c : Thread nD τ).loc main_arg6)) slices_S1024x32_S512x32_0_0 := by
  show StableHlo.after hostOps1 (W2 m ρ c) (Proc.devRef .tc main_v2) = _
  after_results
  rw [W2_arg6 m ρ c]

theorem entry1_7 (c : Dev nD) : V3 m ρ c (Pipeline.arrRef spec1 7)
    = extractStridedSlice S512x32 ![512, 0] (m ((c : Thread nD τ).loc main_arg6)) slices_S1024x32_S512x32_512_0 := by
  show StableHlo.after hostOps1 (W2 m ρ c) (Proc.devRef .tc main_v3) = _
  after_results
  rw [W2_arg6 m ρ c]

/-! ## The result buffer -/

/-- The last stretch stacks the attention region's two outputs. -/
theorem tail (c : Dev nD) : W5 m ρ c (Proc.devRef .tc main_v12)
    = stack (W4 m ρ c (Proc.devRef .tc main_v8_0)) (W4 m ρ c (Proc.devRef .tc main_v8_1)) := by
  show StableHlo.after hostOps2 (W4 m ρ c) (Proc.devRef .tc main_v12) = _
  after_results
  all_goals rfl

/-- The result buffer after the run, as the function (value) of the launch contents of the seven arguments. -/
theorem result_value (c : Dev nD) : W5 m ρ c (Proc.devRef .tc main_v12)
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  have h8 : W4 m ρ c (Proc.devRef .tc main_v8_0) = (dat1 (V3 m ρ) c).arrAt 8 cfg1.N := W4_arr m ρ c 8
  have h9 : W4 m ρ c (Proc.devRef .tc main_v8_1) = (dat1 (V3 m ρ) c).arrAt 9 cfg1.N := W4_arr m ρ c 9
  rw [tail m ρ c, h8, h9, Cert.KernelIdeal.Attn.final8 (V3 m ρ) c, Cert.KernelIdeal.Attn.final9 (V3 m ρ) c,
    entry1_0 m ρ c, entry1_1 m ρ c, entry1_2 m ρ c, entry1_3 m ρ c, entry1_4 m ρ c, entry1_5 m ρ c, entry1_6 m ρ c, entry1_7 m ρ c]
  rfl

end Cert.KernelIdeal.Fold

end
-- ==== Proof.KBridge.lean ====
/-
  The program's result, as the function (value) of its arguments, is the specification (weights).
  Index by index: a position k < 1024 of the reshaped input is the spatial position (k / 32, k % 32), so the sum over
  the 1024 positions is the sum over the 32 x 32 positions (sum_positions); a vector reshaped to a row reads the
  vector; rows 0 .. 511 and 512 .. 1023 of the second weight matrix are its rows lo c and hi c; and the stacked
  result at (b, p, c, 0, 0) is output p's entry (b, c).
-/
import proofs.«120831_j11776800325704_2_alg».proof.Proof.Gen.KernelIdeal.Frame
import proofs.«120831_j11776800325704_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«120831_j11776800325704_2_alg».proof.Proof.KFold
set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

open Cert.KernelIdeal.Pool (pooled poolRow)
open Cert.KernelIdeal.Attn (att0 att1 hid lgt)
open Cert.KernelIdeal.Fold (stack value)
open Cert.SelectAttn (share lo hi)

/-- A sum over the 1024 flattened spatial positions is the sum over the rows of the sums over each row. -/
theorem sum_positions (G : Fin 1024 → EReal) :
    ∑ k : Fin 1024, G k = ∑ h : Fin 32, ∑ w : Fin 32, G ⟨h.val * 32 + w.val, by have := h.isLt; have := w.isLt; omega⟩ := by
  have e : Fin 32 × Fin 32 ≃ Fin 1024 := finProdFinEquiv
  calc ∑ k : Fin 1024, G k = ∑ p : Fin 32 × Fin 32, G (finProdFinEquiv (m := 32) (n := 32) p) :=
        (Equiv.sum_comp (finProdFinEquiv (m := 32) (n := 32)) G).symm
    _ = ∑ h : Fin 32, ∑ w : Fin 32, G (finProdFinEquiv (m := 32) (n := 32) (h, w)) := Fintype.sum_prod_type _
    _ = _ := Finset.sum_congr rfl fun h _ => Finset.sum_congr rfl fun w _ => congrArg G (Fin.ext (by
        show w.val + 32 * h.val = h.val * 32 + w.val; omega))

/-- The reshaped input at (b, a, c, h * 32 + w) is the input at (b, a, c, h, w). -/
theorem reshaped_apply (x : S64x2x512x32x32.Idx → EReal) (b : Fin 64) (a : Fin 2) (c : Fin 512) (h w : Fin 32) :
    shapeCast S64x2x512x1024 x shapeCasts_S64x2x512x32x32_S64x2x512x1024
      (ix4 b a c ⟨h.val * 32 + w.val, by have := h.isLt; have := w.isLt; omega⟩) = x (ix5 b a c h w) :=
  shapeCast_apply x _ _ _ (by
    rw [Shape.rowMajor_val_five, Shape.rowMajor_val_four]
    show (((b.val * 2 + a.val) * 512 + c.val) * 32 + h.val) * 32 + w.val = ((b.val * 2 + a.val) * 512 + c.val) * 1024 + (h.val * 32 + w.val)
    omega)

/-- The pooled array of the reshaped input is the specification's pooled value. -/
theorem pooled_eq (x : S64x2x512x32x32.Idx → EReal) (b : Fin 64) (c : Fin 512) :
    pooled (shapeCast S64x2x512x1024 x shapeCasts_S64x2x512x32x32_S64x2x512x1024) (ix2 b c) = Cert.SelectAttn.pool x b c := by
  show poolRow _ b c = _
  unfold poolRow Cert.SelectAttn.pool
  refine congrArg (· * _) (Finset.sum_congr rfl fun a _ => ?_)
  rw [sum_positions]
  exact Finset.sum_congr rfl fun h _ => Finset.sum_congr rfl fun w _ => reshaped_apply x b a c h w

/-- A vector reshaped to a row reads the vector. -/
theorem row_apply (v : S32.Idx → EReal) (a : Fin 32) : shapeCast S1x32 v shapeCasts_S32_S1x32 (ix2 0 a) = v (ix1 a) :=
  shapeCast_a_1a_apply v _ 0 a

/-- The hidden features agree. -/
theorem hid_eq (x : S64x2x512x32x32.Idx → EReal) (wr : S32x512.Idx → EReal) (g be mu va : S32.Idx → EReal) (b : Fin 64) (a : Fin 32) :
    hid (pooled (shapeCast S64x2x512x1024 x shapeCasts_S64x2x512x32x32_S64x2x512x1024)) wr
      (shapeCast S1x32 g shapeCasts_S32_S1x32) (shapeCast S1x32 be shapeCasts_S32_S1x32)
      (shapeCast S1x32 mu shapeCasts_S32_S1x32) (shapeCast S1x32 va shapeCasts_S32_S1x32) b a
    = Cert.SelectAttn.hidden x wr g be mu va b a := by
  unfold hid Cert.SelectAttn.hidden
  rw [row_apply, row_apply, row_apply, row_apply]
  simp only [pooled_eq]

/-- Rows 0 .. 511 of the second weight matrix: row c is row lo c. -/
theorem lower_apply (ws : S1024x32.Idx → EReal) (c : Fin 512) (a : Fin 32) :
    extractStridedSlice S512x32 ![0, 0] ws slices_S1024x32_S512x32_0_0 (ix2 c a) = ws (ix2 (lo c) a) :=
  extractStridedSlice_apply _ ws _ _ _ fun ax => by
    match ax with
    | ⟨0, _⟩ => show c.val = 0 + c.val; omega
    | ⟨1, _⟩ => show a.val = 0 + a.val; omega

/-- Rows 512 .. 1023: row c is row hi c. -/
theorem upper_apply (ws : S1024x32.Idx → EReal) (c : Fin 512) (a : Fin 32) :
    extractStridedSlice S512x32 ![512, 0] ws slices_S1024x32_S512x32_512_0 (ix2 c a) = ws (ix2 (hi c) a) :=
  extractStridedSlice_apply _ ws _ _ _ fun ax => by
    match ax with
    | ⟨0, _⟩ => show 512 + c.val = 512 + c.val; rfl
    | ⟨1, _⟩ => show a.val = 0 + a.val; omega

/-- The two logits of channel c agree with the specification's at rows lo c and hi c. -/
theorem lgt_lower (x : S64x2x512x32x32.Idx → EReal) (wr : S32x512.Idx → EReal) (g be mu va : S32.Idx → EReal) (ws : S1024x32.Idx → EReal) (b : Fin 64) (c : Fin 512) :
    lgt (pooled (shapeCast S64x2x512x1024 x shapeCasts_S64x2x512x32x32_S64x2x512x1024)) wr
      (shapeCast S1x32 g shapeCasts_S32_S1x32) (shapeCast S1x32 be shapeCasts_S32_S1x32)
      (shapeCast S1x32 mu shapeCasts_S32_S1x32) (shapeCast S1x32 va shapeCasts_S32_S1x32)
      (extractStridedSlice S512x32 ![0, 0] ws slices_S1024x32_S512x32_0_0) b c
    = Cert.SelectAttn.logit x wr g be mu va ws b (lo c) := by
  unfold lgt Cert.SelectAttn.logit
  exact Finset.sum_congr rfl fun a _ => by rw [hid_eq, lower_apply]

theorem lgt_upper (x : S64x2x512x32x32.Idx → EReal) (wr : S32x512.Idx → EReal) (g be mu va : S32.Idx → EReal) (ws : S1024x32.Idx → EReal) (b : Fin 64) (c : Fin 512) :
    lgt (pooled (shapeCast S64x2x512x1024 x shapeCasts_S64x2x512x32x32_S64x2x512x1024)) wr
      (shapeCast S1x32 g shapeCasts_S32_S1x32) (shapeCast S1x32 be shapeCasts_S32_S1x32)
      (shapeCast S1x32 mu shapeCasts_S32_S1x32) (shapeCast S1x32 va shapeCasts_S32_S1x32)
      (extractStridedSlice S512x32 ![512, 0] ws slices_S1024x32_S512x32_512_0) b c
    = Cert.SelectAttn.logit x wr g be mu va ws b (hi c) := by
  unfold lgt Cert.SelectAttn.logit
  exact Finset.sum_congr rfl fun a _ => by rw [hid_eq, upper_apply]

/-- A [64, 512] array given a unit path axis reads, at (b, 0, c), its entry (b, c). -/
theorem lifted_apply (a0 : S64x512.Idx → EReal) (b : Fin 64) (c : Fin 512) :
    broadcastInDim S64x1x512 ![0, 2] bcast_S64x512_S64x1x512_0_2 a0 (ix3 b (0 : Fin 1) c) = a0 (ix2 b c) :=
  broadcastInDim_apply _ _ a0 _ _ fun ax => by
    match ax with
    | ⟨0, _⟩ => rfl
    | ⟨1, _⟩ => rfl

/-- The stacked result at (b, p, c, 0, 0): output 0's entry (b, c) for path 0, output 1's for path 1. -/
theorem stack_apply (a0 a1 : S64x512.Idx → EReal) (b : Fin 64) (p : Fin 2) (c : Fin 512) (u v : Fin 1) :
    stack a0 a1 (ix5 b p c u v) = if p.val = 0 then a0 (ix2 b c) else a1 (ix2 b c) := by
  have hu : u.val = 0 := by omega
  have hv : v.val = 0 := by omega
  unfold stack
  rw [shapeCast_apply _ shapeCasts_S64x2x512_S64x2x512x1x1 (ix5 b p c u v) (ix3 b p c) (by
    rw [Shape.rowMajor_val_five, Shape.rowMajor_val_three]
    show (b.val * 2 + p.val) * 512 + c.val = (((b.val * 2 + p.val) * 512 + c.val) * 1 + u.val) * 1 + v.val
    omega)]
  by_cases hp : p.val = 0
  · rw [if_pos hp]
    rw [concatenate_pair_apply_left (t := S64x2x512) (s₁ := S64x1x512) (s₂ := S64x1x512) (1 : Fin 3) (broadcastInDim S64x1x512 ![0, 2] bcast_S64x512_S64x1x512_0_2 a0) (broadcastInDim S64x1x512 ![0, 2] bcast_S64x512_S64x1x512_0_2 a1) concatenates_S64x1x512_S64x1x512_S64x2x512_d1 (ix3 b p c) rfl (ix3 b (0 : Fin 1) c) (fun ax => by
      match ax with
      | ⟨0, _⟩ => rfl
      | ⟨1, _⟩ => show (0 : ℕ) = p.val; omega
      | ⟨2, _⟩ => rfl)]
    exact lifted_apply a0 b c
  · rw [if_neg hp]
    have hp1 : p.val = 1 := by have := p.isLt; omega
    rw [concatenate_pair_apply_right (t := S64x2x512) (s₁ := S64x1x512) (s₂ := S64x1x512) (1 : Fin 3) (broadcastInDim S64x1x512 ![0, 2] bcast_S64x512_S64x1x512_0_2 a0) (broadcastInDim S64x1x512 ![0, 2] bcast_S64x512_S64x1x512_0_2 a1) concatenates_S64x1x512_S64x1x512_S64x2x512_d1 (ix3 b p c) rfl rfl (ix3 b (0 : Fin 1) c) (fun ax hax => by
      match ax with
      | ⟨0, _⟩ => rfl
      | ⟨1, _⟩ => exact absurd rfl hax
      | ⟨2, _⟩ => rfl) (by show 0 + 1 = p.val; omega)]
    exact lifted_apply a1 b c

/-- The program's result is the specification. -/
theorem value_eq_weights (x : S64x2x512x32x32.Idx → EReal) (wr : S32x512.Idx → EReal) (g be mu va : S32.Idx → EReal) (ws : S1024x32.Idx → EReal) :
    value x wr g be mu va ws = Cert.SelectAttn.weights x wr g be mu va ws := by
  funext i
  obtain ⟨b, p, c, u, v, rfl⟩ : ∃ (b : Fin 64) (p : Fin 2) (c : Fin 512) (u v : Fin 1), i = ix5 b p c u v :=
    ⟨i 0, i 1, i 2, i 3, i 4, eq_ix5 i⟩
  unfold value
  rw [stack_apply]
  show (if p.val = 0 then att0 _ _ _ _ _ _ _ _ (ix2 b c) else att1 _ _ _ _ _ _ _ _ (ix2 b c))
    = share (Cert.SelectAttn.logit x wr g be mu va ws b (lo c)) (Cert.SelectAttn.logit x wr g be mu va ws b (hi c))
        (if p.val = 0 then Cert.SelectAttn.logit x wr g be mu va ws b (lo c) else Cert.SelectAttn.logit x wr g be mu va ws b (hi c))
  unfold att0 att1
  show (if p.val = 0 then share (lgt _ _ _ _ _ _ _ b c) (lgt _ _ _ _ _ _ _ b c) (lgt _ _ _ _ _ _ _ b c)
      else share (lgt _ _ _ _ _ _ _ b c) (lgt _ _ _ _ _ _ _ b c) (lgt _ _ _ _ _ _ _ b c)) = _
  rw [lgt_lower, lgt_upper]
  split <;> rfl

end Cert.KernelIdeal.Bridge

end
-- ==== Proof.RefValue.lean ====
/-
  The reference program's result array, read stage by stage at an index, is the specification's weights.

  Pool: the sum over the two spatial axes of a [64, 512, 32, 32] array at (b, c) is the double sum over (h, w) (the indices
  that drop to (b, c) are in bijection with the pairs (h, w)); with the sum over the two paths taken first and the division
  by 1024 = 2^10 written as the product with 2^-10, this is pool. Hidden: the 512 -> 32 contraction, the three broadcasts of
  the per-feature vectors, subtract, multiply, add and the maximum with zero. Logit: the 32 -> 1024 contraction, and the
  reshape of [64, 1024] to [64, 2, 512, 1, 1], which puts row p * 512 + c at (p, c). Softmax: the maximum over the path
  axis is a fold of max from minus infinity over a pair, so the larger of the two logits; the exponentials of the shifted
  logits, their sum over the path axis, and the quotient are share.
-/
import proofs.«120831_j11776800325704_2_alg».proof.Proof.Gen.ReferenceIdeal.Read
import proofs.«120831_j11776800325704_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.SelectAttn
open scoped BigOperators

/-- The bit patterns the reference spells, as extended reals. -/
theorem ofBits_1024 : Ideal.ofBits .f32 0x44800000#32 = ((1024 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

/-- The sum over the two spatial axes: at (b, c) the double sum over the positions (h, w). -/
theorem v1_apply (x0 : (⟨S64x2x512x32x32, .f32⟩ : BufTy).Contents (Elt Ideal)) (b : Fin 64) (c : Fin 512) :
    val_main_v1 (F := Ideal) x0 (ix2 b c) = ∑ h : Fin 32, ∑ w : Fin 32, val_main_v0 (F := Ideal) x0 (ix4 b c h w) := by
  unfold val_main_v1
  generalize val_main_v0 (F := Ideal) x0 = y
  simp only [Host.reduceAdd, Ideal.hostReduceAdd_def]
  unfold Ideal.hostReduceAdd
  rw [val_main_cst_0_apply, Ideal.ofBits_def, Ideal.ofBits_zero_f32, zero_add, ← Finset.sum_product']
  have key : ∀ i : S64x512x32x32.Idx, reducesTo_S64x512x32x32_S64x512_d2_3.drop i = ix2 b c →
      i = ix4 b c (i 2) (i 3) := by
    intro i hi
    have h0 := congrArg (fun j : S64x512.Idx => (j 0).val) hi
    have h1 := congrArg (fun j : S64x512.Idx => (j 1).val) hi
    funext a
    match a with
    | ⟨0, _⟩ => exact Fin.ext h0
    | ⟨1, _⟩ => exact Fin.ext h1
    | ⟨2, _⟩ => rfl
    | ⟨3, _⟩ => rfl
  refine Finset.sum_nbij' (fun i => ((i 2 : Fin 32), (i 3 : Fin 32))) (fun p => ix4 b c p.1 p.2) ?_ ?_ ?_ ?_ ?_
  · intro i _; exact Finset.mem_product.2 ⟨Finset.mem_univ _, Finset.mem_univ _⟩
  · intro p _
    refine Finset.mem_filter.2 ⟨Finset.mem_univ _, ?_⟩
    funext a
    match a with
    | ⟨0, _⟩ => exact Fin.ext rfl
    | ⟨1, _⟩ => exact Fin.ext rfl
  · intro i hi; exact (key i (Finset.mem_filter.1 hi).2).symm
  · intro p _; rfl
  · intro i hi; exact congrArg y (key i (Finset.mem_filter.1 hi).2)

/-- The mean over the spatial positions of the two paths' sum is the specification's pool. -/
theorem v3_apply (x0 : (⟨S64x2x512x32x32, .f32⟩ : BufTy).Contents (Elt Ideal)) (b : Fin 64) (c : Fin 512) :
    val_main_v3 (F := Ideal) x0 (ix2 b c) = SelectAttn.pool x0 b c := by
  have e : ∀ (h w : Fin 32) (p : Fin 2), idx_main_v0 (ix4 b c h w) p = ix5 b p c h w := by
    intro h w p; funext a
    match a with
    | ⟨0, _⟩ => rfl
    | ⟨1, _⟩ => rfl
    | ⟨2, _⟩ => rfl
    | ⟨3, _⟩ => rfl
    | ⟨4, _⟩ => rfl
  rw [val_main_v3_apply, val_main_v2_apply, val_main_cst_1_apply, v1_apply, Ideal.hostDivf_def, Ideal.ofBits_def,
    ofBits_1024, Ideal.div_coe (by norm_num : (1024 : ℝ) ≠ 0)]
  unfold SelectAttn.pool
  rw [show invHW = ((1 / 1024 : ℝ) : EReal) from ofBits_inv1024]
  refine congrArg (· * _) ?_
  simp only [val_main_v0_apply, val_main_cst_apply, Ideal.ofBits_def, Ideal.ofBits_zero_f32, zero_add, e]
  have s1 : ∀ h : Fin 32, ∑ w : Fin 32, ∑ p : Fin 2, x0 (ix5 b p c h w) = ∑ p : Fin 2, ∑ w : Fin 32, x0 (ix5 b p c h w) :=
    fun h => Finset.sum_comm
  simp only [s1]
  exact Finset.sum_comm

/-- The reduced, normalised and clamped feature is the specification's hidden. -/
theorem v18_apply (x0 : (⟨S64x2x512x32x32, .f32⟩ : BufTy).Contents (Elt Ideal)) (x1 : (⟨S32x512, .f32⟩ : BufTy).Contents (Elt Ideal))
    (x2 x3 x4 x5 : (⟨S32, .f32⟩ : BufTy).Contents (Elt Ideal)) (b : Fin 64) (a : Fin 32) :
    val_main_v18 (F := Ideal) x0 x1 x2 x3 x4 x5 (ix2 b a) = SelectAttn.hidden x0 x1 x2 x3 x4 x5 b a := by
  have e5 : idx_main_v5 (idx_main_v6 (ix2 b a)) = ix1 a := by funext d; match d with | ⟨0, _⟩ => rfl
  have e12 : idx_main_v12 (idx_main_v13 (ix2 b a)) = ix1 a := by funext d; match d with | ⟨0, _⟩ => rfl
  have e15 : idx_main_v15 (idx_main_v16 (ix2 b a)) = ix1 a := by funext d; match d with | ⟨0, _⟩ => rfl
  have el : ∀ k : Fin 512, lidx_main_v4 (ix2 b a) k = ix2 b k := by
    intro k; funext d; match d with | ⟨0, _⟩ => rfl | ⟨1, _⟩ => rfl
  have er : ∀ k : Fin 512, ridx_main_v4 (ix2 b a) k = ix2 a k := by
    intro k; funext d; match d with | ⟨0, _⟩ => rfl | ⟨1, _⟩ => rfl
  rw [val_main_v18_apply, val_main_v17_apply, val_main_v14_apply, val_main_v7_apply, val_main_v4_apply,
    val_main_v6_apply, val_main_v5_apply, val_main_v13_apply, val_main_v12_apply, val_main_v11_apply,
    val_main_v10_apply, val_main_v9_apply, val_main_v8_apply, val_main_cst_2_apply, val_main_v16_apply,
    val_main_v15_apply, val_main_call0_v0_apply, val_main_call0_cst_apply, e5, e12, e15]
  simp only [el, er, v3_apply, Ideal.maximumf_def, Ideal.addf_def, Ideal.mulf_def, Ideal.subf_def,
    Ideal.hostUnary_rsqrt_def, Ideal.ofBits_def, Ideal.ofBits_zero_f32]
  rfl

/-- Row p * 512 + c of the second weight matrix: the row the reshape puts at (path p, channel c). -/
def row (p : Fin 2) (c : Fin 512) : Fin 1024 := ⟨p.val * 512 + c.val, by have := p.isLt; have := c.isLt; omega⟩

theorem row_zero (c : Fin 512) : row 0 c = SelectAttn.lo c := Fin.ext (by simp [row, SelectAttn.lo])
theorem row_one (c : Fin 512) : row 1 c = SelectAttn.hi c := Fin.ext (by simp [row, SelectAttn.hi])

/-- The second linear map at (b, k) is the specification's logit. -/
theorem v19_apply (x0 : (⟨S64x2x512x32x32, .f32⟩ : BufTy).Contents (Elt Ideal)) (x1 : (⟨S32x512, .f32⟩ : BufTy).Contents (Elt Ideal))
    (x2 x3 x4 x5 : (⟨S32, .f32⟩ : BufTy).Contents (Elt Ideal)) (x6 : (⟨S1024x32, .f32⟩ : BufTy).Contents (Elt Ideal))
    (b : Fin 64) (k : Fin 1024) :
    val_main_v19 (F := Ideal) x0 x1 x2 x3 x4 x5 x6 (ix2 b k) = SelectAttn.logit x0 x1 x2 x3 x4 x5 x6 b k := by
  have el : ∀ a : Fin 32, lidx_main_v19 (ix2 b k) a = ix2 b a := by
    intro a; funext d; match d with | ⟨0, _⟩ => rfl | ⟨1, _⟩ => rfl
  have er : ∀ a : Fin 32, ridx_main_v19 (ix2 b k) a = ix2 k a := by
    intro a; funext d; match d with | ⟨0, _⟩ => rfl | ⟨1, _⟩ => rfl
  rw [val_main_v19_apply]
  simp only [el, er, v18_apply]
  rfl

/-- The reshaped logits: at (b, p, c, 0, 0) the logit of row p * 512 + c. -/
theorem v20_apply (x0 : (⟨S64x2x512x32x32, .f32⟩ : BufTy).Contents (Elt Ideal)) (x1 : (⟨S32x512, .f32⟩ : BufTy).Contents (Elt Ideal))
    (x2 x3 x4 x5 : (⟨S32, .f32⟩ : BufTy).Contents (Elt Ideal)) (x6 : (⟨S1024x32, .f32⟩ : BufTy).Contents (Elt Ideal))
    (b : Fin 64) (p : Fin 2) (c : Fin 512) (u v : Fin 1) :
    val_main_v20 (F := Ideal) x0 x1 x2 x3 x4 x5 x6 (ix5 b p c u v) = SelectAttn.logit x0 x1 x2 x3 x4 x5 x6 b (row p c) := by
  have e : idx_main_v20 (ix5 b p c u v) = ix2 b (row p c) := by
    have hb := b.isLt; have hp := p.isLt; have hc := c.isLt; have hu := u.isLt; have hv := v.isLt
    funext d
    match d with
    | ⟨0, _⟩ =>
      refine Fin.ext ?_
      show ((((b.val * 2 + p.val) * 512 + c.val) * 1 + u.val) * 1 + v.val) / 1024 = b.val
      omega
    | ⟨1, _⟩ =>
      refine Fin.ext ?_
      show ((((b.val * 2 + p.val) * 512 + c.val) * 1 + u.val) * 1 + v.val) % 1024 = p.val * 512 + c.val
      omega
  rw [val_main_v20_apply, e, v19_apply]

/-- The fold of max from minus infinity over a pair is the larger of the pair. -/
theorem fold_max_two (g : Fin 2 → Ideal .f32) :
    Finset.fold (FloatOps.maximumf (F := Ideal) (φ := .f32)) (⊥ : EReal) g Finset.univ = max (g 0) (g 1) := by
  rw [show (Finset.univ : Finset (Fin 2)) = {0, 1} from by decide, Finset.fold_insert (by decide), Finset.fold_singleton]
  simp only [Ideal.maximumf_def]
  rw [max_bot_right]

/-- The maximum over the path axis: the larger of the channel's two logits. -/
theorem v21_apply (x0 : (⟨S64x2x512x32x32, .f32⟩ : BufTy).Contents (Elt Ideal)) (x1 : (⟨S32x512, .f32⟩ : BufTy).Contents (Elt Ideal))
    (x2 x3 x4 x5 : (⟨S32, .f32⟩ : BufTy).Contents (Elt Ideal)) (x6 : (⟨S1024x32, .f32⟩ : BufTy).Contents (Elt Ideal))
    (b : Fin 64) (c : Fin 512) (u v : Fin 1) :
    val_main_v21 (F := Ideal) x0 x1 x2 x3 x4 x5 x6 (ix4 b c u v)
      = max (SelectAttn.logit x0 x1 x2 x3 x4 x5 x6 b (SelectAttn.lo c)) (SelectAttn.logit x0 x1 x2 x3 x4 x5 x6 b (SelectAttn.hi c)) := by
  have h : Shape.Reduces S64x2x512x1x1 [1] S64x512x1x1 := by decide
  have el : ∀ k : Fin 2, h.lift (ix4 b c u v) k = ix5 b k c u v := by
    intro k; funext d
    match d with
    | ⟨0, _⟩ => exact Fin.ext rfl
    | ⟨1, _⟩ => exact Fin.ext rfl
    | ⟨2, _⟩ => exact Fin.ext rfl
    | ⟨3, _⟩ => exact Fin.ext rfl
    | ⟨4, _⟩ => exact Fin.ext rfl
  unfold val_main_v21
  rw [Host.reduce_eq_fold_single FloatOps.maximumf _ _ reducesTo_S64x2x512x1x1_S64x512x1x1_d1 h h_S_]
  rw [val_main_cst_3_apply, Ideal.ofBits_def, ofBits_neg_inf]
  refine (fold_max_two _).trans ?_
  show max (val_main_v20 (F := Ideal) x0 x1 x2 x3 x4 x5 x6 (h.lift (ix4 b c u v) (0 : Fin 2)))
    (val_main_v20 (F := Ideal) x0 x1 x2 x3 x4 x5 x6 (h.lift (ix4 b c u v) (1 : Fin 2))) = _
  rw [el, el, v20_apply, v20_apply, row_zero, row_one]

/-- Taking the maximum with minus infinity once more changes nothing. -/
theorem v23_apply (x0 : (⟨S64x2x512x32x32, .f32⟩ : BufTy).Contents (Elt Ideal)) (x1 : (⟨S32x512, .f32⟩ : BufTy).Contents (Elt Ideal))
    (x2 x3 x4 x5 : (⟨S32, .f32⟩ : BufTy).Contents (Elt Ideal)) (x6 : (⟨S1024x32, .f32⟩ : BufTy).Contents (Elt Ideal))
    (b : Fin 64) (c : Fin 512) (u v : Fin 1) :
    val_main_v23 (F := Ideal) x0 x1 x2 x3 x4 x5 x6 (ix4 b c u v)
      = max (SelectAttn.logit x0 x1 x2 x3 x4 x5 x6 b (SelectAttn.lo c)) (SelectAttn.logit x0 x1 x2 x3 x4 x5 x6 b (SelectAttn.hi c)) := by
  rw [val_main_v23_apply, val_main_v22_apply, val_main_cst_4_apply, v21_apply, Ideal.maximumf_def, Ideal.ofBits_def,
    ofBits_neg_inf, max_bot_left]

/-- The maximum, broadcast back over the path axis. -/
theorem v25_apply (x0 : (⟨S64x2x512x32x32, .f32⟩ : BufTy).Contents (Elt Ideal)) (x1 : (⟨S32x512, .f32⟩ : BufTy).Contents (Elt Ideal))
    (x2 x3 x4 x5 : (⟨S32, .f32⟩ : BufTy).Contents (Elt Ideal)) (x6 : (⟨S1024x32, .f32⟩ : BufTy).Contents (Elt Ideal))
    (b : Fin 64) (p : Fin 2) (c : Fin 512) (u v : Fin 1) :
    val_main_v25 (F := Ideal) x0 x1 x2 x3 x4 x5 x6 (ix5 b p c u v)
      = max (SelectAttn.logit x0 x1 x2 x3 x4 x5 x6 b (SelectAttn.lo c)) (SelectAttn.logit x0 x1 x2 x3 x4 x5 x6 b (SelectAttn.hi c)) := by
  have e : idx_main_v24 (idx_main_v25 (ix5 b p c u v)) = ix4 b c 0 0 := by
    funext d
    match d with
    | ⟨0, _⟩ => rfl
    | ⟨1, _⟩ => rfl
    | ⟨2, _⟩ => rfl
    | ⟨3, _⟩ => rfl
  rw [val_main_v25_apply, val_main_v24_apply, e, v23_apply]

/-- The exponential of the shifted logit. -/
theorem v27_apply (x0 : (⟨S64x2x512x32x32, .f32⟩ : BufTy).Contents (Elt Ideal)) (x1 : (⟨S32x512, .f32⟩ : BufTy).Contents (Elt Ideal))
    (x2 x3 x4 x5 : (⟨S32, .f32⟩ : BufTy).Contents (Elt Ideal)) (x6 : (⟨S1024x32, .f32⟩ : BufTy).Contents (Elt Ideal))
    (b : Fin 64) (p : Fin 2) (c : Fin 512) (u v : Fin 1) :
    val_main_v27 (F := Ideal) x0 x1 x2 x3 x4 x5 x6 (ix5 b p c u v)
      = Ideal.exp (SelectAttn.logit x0 x1 x2 x3 x4 x5 x6 b (row p c) - max (SelectAttn.logit x0 x1 x2 x3 x4 x5 x6 b (SelectAttn.lo c)) (SelectAttn.logit x0 x1 x2 x3 x4 x5 x6 b (SelectAttn.hi c))) := by
  rw [val_main_v27_apply, val_main_v26_apply, v20_apply, v25_apply, Ideal.hostUnary_exp_def, Ideal.subf_def]

/-- The sum of the two exponentials. -/
theorem v28_apply' (x0 : (⟨S64x2x512x32x32, .f32⟩ : BufTy).Contents (Elt Ideal)) (x1 : (⟨S32x512, .f32⟩ : BufTy).Contents (Elt Ideal))
    (x2 x3 x4 x5 : (⟨S32, .f32⟩ : BufTy).Contents (Elt Ideal)) (x6 : (⟨S1024x32, .f32⟩ : BufTy).Contents (Elt Ideal))
    (b : Fin 64) (c : Fin 512) (u v : Fin 1) :
    val_main_v28 (F := Ideal) x0 x1 x2 x3 x4 x5 x6 (ix4 b c u v)
      = Ideal.exp (SelectAttn.logit x0 x1 x2 x3 x4 x5 x6 b (SelectAttn.lo c) - max (SelectAttn.logit x0 x1 x2 x3 x4 x5 x6 b (SelectAttn.lo c)) (SelectAttn.logit x0 x1 x2 x3 x4 x5 x6 b (SelectAttn.hi c))) + Ideal.exp (SelectAttn.logit x0 x1 x2 x3 x4 x5 x6 b (SelectAttn.hi c) - max (SelectAttn.logit x0 x1 x2 x3 x4 x5 x6 b (SelectAttn.lo c)) (SelectAttn.logit x0 x1 x2 x3 x4 x5 x6 b (SelectAttn.hi c))) := by
  have e : ∀ k : Fin 2, idx_main_v28 (ix4 b c u v) k = ix5 b k c u v := by
    intro k; funext d
    match d with
    | ⟨0, _⟩ => rfl
    | ⟨1, _⟩ => rfl
    | ⟨2, _⟩ => rfl
    | ⟨3, _⟩ => rfl
    | ⟨4, _⟩ => rfl
  rw [val_main_v28_apply, val_main_cst_5_apply, Ideal.ofBits_def, Ideal.ofBits_zero_f32, zero_add, Fin.sum_univ_two]
  simp only [e, v27_apply, row_zero, row_one]

/-- The sum, broadcast back over the path axis. -/
theorem v30_apply' (x0 : (⟨S64x2x512x32x32, .f32⟩ : BufTy).Contents (Elt Ideal)) (x1 : (⟨S32x512, .f32⟩ : BufTy).Contents (Elt Ideal))
    (x2 x3 x4 x5 : (⟨S32, .f32⟩ : BufTy).Contents (Elt Ideal)) (x6 : (⟨S1024x32, .f32⟩ : BufTy).Contents (Elt Ideal))
    (b : Fin 64) (p : Fin 2) (c : Fin 512) (u v : Fin 1) :
    val_main_v30 (F := Ideal) x0 x1 x2 x3 x4 x5 x6 (ix5 b p c u v)
      = Ideal.exp (SelectAttn.logit x0 x1 x2 x3 x4 x5 x6 b (SelectAttn.lo c) - max (SelectAttn.logit x0 x1 x2 x3 x4 x5 x6 b (SelectAttn.lo c)) (SelectAttn.logit x0 x1 x2 x3 x4 x5 x6 b (SelectAttn.hi c))) + Ideal.exp (SelectAttn.logit x0 x1 x2 x3 x4 x5 x6 b (SelectAttn.hi c) - max (SelectAttn.logit x0 x1 x2 x3 x4 x5 x6 b (SelectAttn.lo c)) (SelectAttn.logit x0 x1 x2 x3 x4 x5 x6 b (SelectAttn.hi c))) := by
  have e : idx_main_v29 (idx_main_v30 (ix5 b p c u v)) = ix4 b c 0 0 := by
    funext d
    match d with
    | ⟨0, _⟩ => rfl
    | ⟨1, _⟩ => rfl
    | ⟨2, _⟩ => rfl
    | ⟨3, _⟩ => rfl
  rw [val_main_v30_apply, val_main_v29_apply, e, v28_apply']

/-- The quotient: the softmax weight of path p among the channel's two logits. -/
theorem v31_apply' (x0 : (⟨S64x2x512x32x32, .f32⟩ : BufTy).Contents (Elt Ideal)) (x1 : (⟨S32x512, .f32⟩ : BufTy).Contents (Elt Ideal))
    (x2 x3 x4 x5 : (⟨S32, .f32⟩ : BufTy).Contents (Elt Ideal)) (x6 : (⟨S1024x32, .f32⟩ : BufTy).Contents (Elt Ideal))
    (b : Fin 64) (p : Fin 2) (c : Fin 512) (u v : Fin 1) :
    val_main_v31 (F := Ideal) x0 x1 x2 x3 x4 x5 x6 (ix5 b p c u v)
      = SelectAttn.share (SelectAttn.logit x0 x1 x2 x3 x4 x5 x6 b (SelectAttn.lo c)) (SelectAttn.logit x0 x1 x2 x3 x4 x5 x6 b (SelectAttn.hi c)) (SelectAttn.logit x0 x1 x2 x3 x4 x5 x6 b (row p c)) := by
  rw [val_main_v31_apply, v27_apply, v30_apply', Ideal.hostDivf_def]
  rfl

/-- The specification's weights at the index (b, p, c, u, v). -/
theorem weights_ix5 (x0 : (⟨S64x2x512x32x32, .f32⟩ : BufTy).Contents (Elt Ideal)) (x1 : (⟨S32x512, .f32⟩ : BufTy).Contents (Elt Ideal))
    (x2 x3 x4 x5 : (⟨S32, .f32⟩ : BufTy).Contents (Elt Ideal)) (x6 : (⟨S1024x32, .f32⟩ : BufTy).Contents (Elt Ideal))
    (b : Fin 64) (p : Fin 2) (c : Fin 512) (u v : Fin 1) :
    SelectAttn.weights x0 x1 x2 x3 x4 x5 x6 (ix5 b p c u v)
      = SelectAttn.share (SelectAttn.logit x0 x1 x2 x3 x4 x5 x6 b (SelectAttn.lo c)) (SelectAttn.logit x0 x1 x2 x3 x4 x5 x6 b (SelectAttn.hi c)) (if p.val = 0 then SelectAttn.logit x0 x1 x2 x3 x4 x5 x6 b (SelectAttn.lo c) else SelectAttn.logit x0 x1 x2 x3 x4 x5 x6 b (SelectAttn.hi c)) := rfl

/-- The reference's result array is the specification's weights. -/
theorem ref_eq_weights (x0 : (⟨S64x2x512x32x32, .f32⟩ : BufTy).Contents (Elt Ideal)) (x1 : (⟨S32x512, .f32⟩ : BufTy).Contents (Elt Ideal))
    (x2 x3 x4 x5 : (⟨S32, .f32⟩ : BufTy).Contents (Elt Ideal)) (x6 : (⟨S1024x32, .f32⟩ : BufTy).Contents (Elt Ideal)) :
    Cert.ReferenceIdeal.Read.val_main_v31 (F := Ideal) x0 x1 x2 x3 x4 x5 x6 = Cert.SelectAttn.weights x0 x1 x2 x3 x4 x5 x6 := by
  funext i
  obtain ⟨b, p, c, u, v, rfl⟩ : ∃ (b : Fin 64) (p : Fin 2) (c : Fin 512) (u v : Fin 1), i = ix5 b p c u v :=
    ⟨i 0, i 1, i 2, i 3, i 4, eq_ix5 i⟩
  rw [v31_apply', weights_ix5]
  have hp : p = 0 ∨ p = 1 := by
    rcases p with ⟨_ | _ | n, hn⟩
    · exact Or.inl rfl
    · exact Or.inr rfl
    · omega
  rcases hp with rfl | rfl
  · rw [row_zero, if_pos (show (0 : Fin 2).val = 0 from rfl)]
  · rw [row_one, if_neg (show ¬ (1 : Fin 2).val = 0 from by decide)]

end Cert.ReferenceIdeal.RefValue

end
-- ==== Proof.lean ====
/-
  The certificate of the selective-kernel attention kernel against its jnp reference.

  Both programs compute, for a batch entry b, a path p and a channel c, the softmax weight of path p among the two
  logits of channel c (Proof/Spec.lean, weights): the two paths of the input are added and averaged over the 32 x 32
  spatial positions, sent through a 512 -> 32 linear map, an inference-mode batch normalisation and a clamp at zero,
  then through a 32 -> 1024 linear map whose rows c and 512 + c are channel c's two logits.
  The kernel does it in two regions (a pooling region over an 8 x 4 grid of blocks, with the sum taken over the
  spatial axis first and the mean's division spelt as a product with 2^-10; then one block that does the rest with
  bf16 matrix-unit inputs), the reference in host operations (the path sum first, a division by 1024, and a softmax
  whose maximum is taken from minus infinity and whose denominator starts from zero). On the extended reals a change
  of float format is the identity, addition is commutative and associative, division by 1024 is the product with
  2^-10, the maximum with minus infinity and the sum with zero change nothing; so both results are that one
  function of the arguments. The equality needs no finiteness: the precondition is never opened.

  The three frames are the generated ones (the reference's is its generated run with the result dropped); the
  idealization rewrote nothing, so preserves is trivial.
-/
import proofs.«120831_j11776800325704_2_alg».proof.Defs
import proofs.«120831_j11776800325704_2_alg».proof.Proof.Gen.Kernel
import proofs.«120831_j11776800325704_2_alg».proof.Proof.Gen.Kernel.Frame
import proofs.«120831_j11776800325704_2_alg».proof.Proof.Gen.KernelIdeal
import proofs.«120831_j11776800325704_2_alg».proof.Proof.Gen.KernelIdeal.Frame
import proofs.«120831_j11776800325704_2_alg».proof.Proof.Gen.ReferenceIdeal
import proofs.«120831_j11776800325704_2_alg».proof.Proof.Gen.Pre_finite_inputs
import proofs.«120831_j11776800325704_2_alg».proof.Proof.Gen.ReferenceIdeal.Run
import proofs.«120831_j11776800325704_2_alg».proof.Proof.Gen.ReferenceIdeal.Read
import proofs.«120831_j11776800325704_2_alg».proof.Proof.Spec
import proofs.«120831_j11776800325704_2_alg».proof.Proof.KRun
import proofs.«120831_j11776800325704_2_alg».proof.Proof.KFold
import proofs.«120831_j11776800325704_2_alg».proof.Proof.KBridge
import proofs.«120831_j11776800325704_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result buffer at the specification's
    array of the arguments: the kernel program by its run with the result named, the fold of its segments read at
    the result buffer and identified with the specification; the reference by its generated run and the same
    identification of its composed term. -/
theorem algebraic : Cert.algebraic_KernelIdeal_ReferenceIdeal := by
  intro m ρ m' ρ' _ hagree
  refine ⟨fun c => Cert.SelectAttn.weights
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩)
      (Cert.KernelIdeal.Result.run_result (F := Ideal) m ρ)
    rw [Cert.KernelIdeal.Fold.result_value m ρ c, Cert.KernelIdeal.Bridge.value_eq_weights]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, Cert.ReferenceIdeal.RefValue.ref_eq_weights,
      (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
